-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x1024x768 .f32) (main_arg1 : FVec F S2304x768 .f32) (main_arg2 : FVec F S768x768 .f32) (main_arg3 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S1x768 : Shape := ⟨2, ![1, 768]⟩
abbrev S1x1024x768 : Shape := ⟨3, ![1, 1024, 768]⟩
abbrev S1024x768 : Shape := ⟨2, ![1024, 768]⟩
abbrev S256x64 : Shape := ⟨2, ![256, 64]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩

abbrev nBuf : Space → Nat
  | .hbm => 9
  | .vmem => 11
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x1024x768, .bf16⟩
  | .hbm, ⟨5, _⟩ => ⟨S2304x768, .bf16⟩
  | .hbm, ⟨6, _⟩ => ⟨S768x768, .bf16⟩
  | .hbm, ⟨7, _⟩ => ⟨S1x768, .f32⟩
  | .hbm, ⟨8, _⟩ => ⟨S8x1024x768, .f32⟩
  | .local _ .vmem, ⟨0, _⟩ => ⟨S1x1024x768, .bf16⟩
  | .local _ .vmem, ⟨1, _⟩ => ⟨S1x1024x768, .bf16⟩
  | .local _ .vmem, ⟨2, _⟩ => ⟨S2304x768, .bf16⟩
  | .local _ .vmem, ⟨3, _⟩ => ⟨S768x768, .bf16⟩
  | .local _ .vmem, ⟨4, _⟩ => ⟨S1x768, .f32⟩
  | .local _ .vmem, ⟨5, _⟩ => ⟨S1x1024x768, .f32⟩
  | .local _ .vmem, ⟨6, _⟩ => ⟨S1x1024x768, .f32⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v23 : BitVec 32 := Scalar.muli c0_i32 c256_i32
  v23
def k0_off1 (c0_i32 : BitVec 32) : Fin 2 → Nat :=
  let c256_i32 : BitVec 32 := 256#32
  let v23 : BitVec 32 := Scalar.muli c0_i32 c256_i32
  let v24 : BitVec 32 := v23
  let v25 : Index := Scalar.indexCast v24
  let c0_14 : Index := 0#32
  ![v25.toNat, 0]
def k0_off2 (c0_i32 : BitVec 32) : Fin 2 → Nat :=
  let c256_i32 : BitVec 32 := 256#32
  let v23 : BitVec 32 := Scalar.muli c0_i32 c256_i32
  let v24 : BitVec 32 := v23
  let v27 : Index := Scalar.indexCast v24
  let c64 : Index := 64#32
  ![v27.toNat, 64]
def k0_off3 (c0_i32 : BitVec 32) : Fin 2 → Nat :=
  let c256_i32 : BitVec 32 := 256#32
  let v23 : BitVec 32 := Scalar.muli c0_i32 c256_i32
  let v24 : BitVec 32 := v23
  let v59 : Index := Scalar.indexCast v24
  let c0_31 : Index := 0#32
  ![v59.toNat, 0]
def k0_mult2 : BitVec 32 :=
  let c1_i32 : BitVec 32 := 1#32
  let c256_i32_32 : BitVec 32 := 256#32
  let v63 : BitVec 32 := Scalar.muli c1_i32 c256_i32_32
  v63
def k0_mult3 : BitVec 32 :=
  let c2_i32 : BitVec 32 := 2#32
  let c256_i32_52 : BitVec 32 := 256#32
  let v103 : BitVec 32 := Scalar.muli c2_i32 c256_i32_52
  v103
def k0_mult4 : BitVec 32 :=
  let c3_i32 : BitVec 32 := 3#32
  let c256_i32_72 : BitVec 32 := 256#32
  let v143 : BitVec 32 := Scalar.muli c3_i32 c256_i32_72
  v143
def k0_mult5 : BitVec 32 :=
  let c0_i32_92 : BitVec 32 := 0#32
  let c256_i32_93 : BitVec 32 := 256#32
  let v183 : BitVec 32 := Scalar.muli c0_i32_92 c256_i32_93
  v183
def k0_off4 (c0_i32_92 : BitVec 32) : Fin 2 → Nat :=
  let c256_i32_93 : BitVec 32 := 256#32
  let v183 : BitVec 32 := Scalar.muli c0_i32_92 c256_i32_93
  let v184 : BitVec 32 := v183
  let v185 : Index := Scalar.indexCast v184
  let c128 : Index := 128#32
  ![v185.toNat, 128]
def k0_off5 (c0_i32_92 : BitVec 32) : Fin 2 → Nat :=
  let c256_i32_93 : BitVec 32 := 256#32
  let v183 : BitVec 32 := Scalar.muli c0_i32_92 c256_i32_93
  let v184 : BitVec 32 := v183
  let v187 : Index := Scalar.indexCast v184
  let c192 : Index := 192#32
  ![v187.toNat, 192]
def k0_off6 (c0_i32_92 : BitVec 32) : Fin 2 → Nat :=
  let c256_i32_93 : BitVec 32 := 256#32
  let v183 : BitVec 32 := Scalar.muli c0_i32_92 c256_i32_93
  let v184 : BitVec 32 := v183
  let v219 : Index := Scalar.indexCast v184
  let c128_110 : Index := 128#32
  ![v219.toNat, 128]
def k0_mult6 : BitVec 32 :=
  let c1_i32_111 : BitVec 32 := 1#32
  let c256_i32_112 : BitVec 32 := 256#32
  let v223 : BitVec 32 := Scalar.muli c1_i32_111 c256_i32_112
  v223
def k0_mult7 : BitVec 32 :=
  let c2_i32_132 : BitVec 32 := 2#32
  let c256_i32_133 : BitVec 32 := 256#32
  let v263 : BitVec 32 := Scalar.muli c2_i32_132 c256_i32_133
  v263
def k0_mult8 : BitVec 32 :=
  let c3_i32_153 : BitVec 32 := 3#32
  let c256_i32_154 : BitVec 32 := 256#32
  let v303 : BitVec 32 := Scalar.muli c3_i32_153 c256_i32_154
  v303
def k0_mult9 : BitVec 32 :=
  let c0_i32_175 : BitVec 32 := 0#32
  let c256_i32_176 : BitVec 32 := 256#32
  let v343 : BitVec 32 := Scalar.muli c0_i32_175 c256_i32_176
  v343
def k0_off7 (c0_i32_175 : BitVec 32) : Fin 2 → Nat :=
  let c256_i32_176 : BitVec 32 := 256#32
  let v343 : BitVec 32 := Scalar.muli c0_i32_175 c256_i32_176
  let v344 : BitVec 32 := v343
  let v345 : Index := Scalar.indexCast v344
  let c256 : Index := 256#32
  ![v345.toNat, 256]
def k0_off8 (c0_i32_175 : BitVec 32) : Fin 2 → Nat :=
  let c256_i32_176 : BitVec 32 := 256#32
  let v343 : BitVec 32 := Scalar.muli c0_i32_175 c256_i32_176
  let v344 : BitVec 32 := v343
  let v347 : Index := Scalar.indexCast v344
  let c320 : Index := 320#32
  ![v347.toNat, 320]
def k0_off9 (c0_i32_175 : BitVec 32) : Fin 2 → Nat :=
  let c256_i32_176 : BitVec 32 := 256#32
  let v343 : BitVec 32 := Scalar.muli c0_i32_175 c256_i32_176
  let v344 : BitVec 32 := v343
  let v379 : Index := Scalar.indexCast v344
  let c256_193 : Index := 256#32
  ![v379.toNat, 256]
def k0_mult10 : BitVec 32 :=
  let c1_i32_194 : BitVec 32 := 1#32
  let c256_i32_195 : BitVec 32 := 256#32
  let v383 : BitVec 32 := Scalar.muli c1_i32_194 c256_i32_195
  v383
def k0_mult11 : BitVec 32 :=
  let c2_i32_215 : BitVec 32 := 2#32
  let c256_i32_216 : BitVec 32 := 256#32
  let v423 : BitVec 32 := Scalar.muli c2_i32_215 c256_i32_216
  v423
def k0_mult12 : BitVec 32 :=
  let c3_i32_236 : BitVec 32 := 3#32
  let c256_i32_237 : BitVec 32 := 256#32
  let v463 : BitVec 32 := Scalar.muli c3_i32_236 c256_i32_237
  v463
def k0_mult13 : BitVec 32 :=
  let c0_i32_258 : BitVec 32 := 0#32
  let c256_i32_259 : BitVec 32 := 256#32
  let v503 : BitVec 32 := Scalar.muli c0_i32_258 c256_i32_259
  v503
def k0_off10 (c0_i32_258 : BitVec 32) : Fin 2 → Nat :=
  let c256_i32_259 : BitVec 32 := 256#32
  let v503 : BitVec 32 := Scalar.muli c0_i32_258 c256_i32_259
  let v504 : BitVec 32 := v503
  let v505 : Index := Scalar.indexCast v504
  let c384 : Index := 384#32
  ![v505.toNat, 384]
def k0_off11 (c0_i32_258 : BitVec 32) : Fin 2 → Nat :=
  let c256_i32_259 : BitVec 32 := 256#32
  let v503 : BitVec 32 := Scalar.muli c0_i32_258 c256_i32_259
  let v504 : BitVec 32 := v503
  let v507 : Index := Scalar.indexCast v504
  let c448 : Index := 448#32
  ![v507.toNat, 448]
def k0_off12 (c0_i32_258 : BitVec 32) : Fin 2 → Nat :=
  let c256_i32_259 : BitVec 32 := 256#32
  let v503 : BitVec 32 := Scalar.muli c0_i32_258 c256_i32_259
  let v504 : BitVec 32 := v503
  let v539 : Index := Scalar.indexCast v504
  let c384_276 : Index := 384#32
  ![v539.toNat, 384]
def k0_mult14 : BitVec 32 :=
  let c1_i32_277 : BitVec 32 := 1#32
  let c256_i32_278 : BitVec 32 := 256#32
  let v543 : BitVec 32 := Scalar.muli c1_i32_277 c256_i32_278
  v543
def k0_mult15 : BitVec 32 :=
  let c2_i32_298 : BitVec 32 := 2#32
  let c256_i32_299 : BitVec 32 := 256#32
  let v583 : BitVec 32 := Scalar.muli c2_i32_298 c256_i32_299
  v583
def k0_mult16 : BitVec 32 :=
  let c3_i32_319 : BitVec 32 := 3#32
  let c256_i32_320 : BitVec 32 := 256#32
  let v623 : BitVec 32 := Scalar.muli c3_i32_319 c256_i32_320
  v623
def k0_mult17 : BitVec 32 :=
  let c0_i32_341 : BitVec 32 := 0#32
  let c256_i32_342 : BitVec 32 := 256#32
  let v663 : BitVec 32 := Scalar.muli c0_i32_341 c256_i32_342
  v663
def k0_off13 (c0_i32_341 : BitVec 32) : Fin 2 → Nat :=
  let c256_i32_342 : BitVec 32 := 256#32
  let v663 : BitVec 32 := Scalar.muli c0_i32_341 c256_i32_342
  let v664 : BitVec 32 := v663
  let v665 : Index := Scalar.indexCast v664
  let c512 : Index := 512#32
  ![v665.toNat, 512]
def k0_off14 (c0_i32_341 : BitVec 32) : Fin 2 → Nat :=
  let c256_i32_342 : BitVec 32 := 256#32
  let v663 : BitVec 32 := Scalar.muli c0_i32_341 c256_i32_342
  let v664 : BitVec 32 := v663
  let v667 : Index := Scalar.indexCast v664
  let c576 : Index := 576#32
  ![v667.toNat, 576]
def k0_off15 (c0_i32_341 : BitVec 32) : Fin 2 → Nat :=
  let c256_i32_342 : BitVec 32 := 256#32
  let v663 : BitVec 32 := Scalar.muli c0_i32_341 c256_i32_342
  let v664 : BitVec 32 := v663
  let v699 : Index := Scalar.indexCast v664
  let c512_359 : Index := 512#32
  ![v699.toNat, 512]
def k0_mult18 : BitVec 32 :=
  let c1_i32_360 : BitVec 32 := 1#32
  let c256_i32_361 : BitVec 32 := 256#32
  let v703 : BitVec 32 := Scalar.muli c1_i32_360 c256_i32_361
  v703
def k0_mult19 : BitVec 32 :=
  let c2_i32_381 : BitVec 32 := 2#32
  let c256_i32_382 : BitVec 32 := 256#32
  let v743 : BitVec 32 := Scalar.muli c2_i32_381 c256_i32_382
  v743
def k0_mult20 : BitVec 32 :=
  let c3_i32_402 : BitVec 32 := 3#32
  let c256_i32_403 : BitVec 32 := 256#32
  let v783 : BitVec 32 := Scalar.muli c3_i32_402 c256_i32_403
  v783
def k0_mult21 : BitVec 32 :=
  let c0_i32_424 : BitVec 32 := 0#32
  let c256_i32_425 : BitVec 32 := 256#32
  let v823 : BitVec 32 := Scalar.muli c0_i32_424 c256_i32_425
  v823
def k0_off16 (c0_i32_424 : BitVec 32) : Fin 2 → Nat :=
  let c256_i32_425 : BitVec 32 := 256#32
  let v823 : BitVec 32 := Scalar.muli c0_i32_424 c256_i32_425
  let v824 : BitVec 32 := v823
  let v825 : Index := Scalar.indexCast v824
  let c640 : Index := 640#32
  ![v825.toNat, 640]
def k0_off17 (c0_i32_424 : BitVec 32) : Fin 2 → Nat :=
  let c256_i32_425 : BitVec 32 := 256#32
  let v823 : BitVec 32 := Scalar.muli c0_i32_424 c256_i32_425
  let v824 : BitVec 32 := v823
  let v827 : Index := Scalar.indexCast v824
  let c704 : Index := 704#32
  ![v827.toNat, 704]
def k0_off18 (c0_i32_424 : BitVec 32) : Fin 2 → Nat :=
  let c256_i32_425 : BitVec 32 := 256#32
  let v823 : BitVec 32 := Scalar.muli c0_i32_424 c256_i32_425
  let v824 : BitVec 32 := v823
  let v859 : Index := Scalar.indexCast v824
  let c640_442 : Index := 640#32
  ![v859.toNat, 640]
def k0_mult22 : BitVec 32 :=
  let c1_i32_443 : BitVec 32 := 1#32
  let c256_i32_444 : BitVec 32 := 256#32
  let v863 : BitVec 32 := Scalar.muli c1_i32_443 c256_i32_444
  v863
def k0_mult23 : BitVec 32 :=
  let c2_i32_464 : BitVec 32 := 2#32
  let c256_i32_465 : BitVec 32 := 256#32
  let v903 : BitVec 32 := Scalar.muli c2_i32_464 c256_i32_465
  v903
def k0_mult24 : BitVec 32 :=
  let c3_i32_485 : BitVec 32 := 3#32
  let c256_i32_486 : BitVec 32 := 256#32
  let v943 : BitVec 32 := Scalar.muli c3_i32_485 c256_i32_486
  v943
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S768_S1x768 : S768.ShapeCasts S1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S2304x768_S768x768_0_0 : ∀ a, (![0, 0] : Fin 2 → Nat) a + S768x768.size a ≤ S2304x768.size a
  h_S768x768 : 0 < S768x768.numel
  shapeCasts_S768x768_S768x768 : S768x768.ShapeCasts S768x768
  inb_S2304x768_S768x768_768_0 : ∀ a, (![768, 0] : Fin 2 → Nat) a + S768x768.size a ≤ S2304x768.size a
  inb_S2304x768_S768x768_1536_0 : ∀ a, (![1536, 0] : Fin 2 → Nat) a + S768x768.size a ≤ S2304x768.size a
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  h_S256x64 : 0 < S256x64.numel
  inb_S1024x768_S1024x64_0_0 : ∀ a, (![0, 0] : Fin 2 → Nat) a + S1024x64.size a ≤ S1024x768.size a
  h_S1024x64 : 0 < S1024x64.numel
  inb_S1024x768_S1024x64_0_64 : ∀ a, (![0, 64] : Fin 2 → Nat) a + S1024x64.size a ≤ S1024x768.size a
  reduces_S256x1024_S256 : S256x1024.Reduces [1] S256
  shapeCasts_S256_S256x1 : S256.ShapeCasts S256x1
  broadcasts_S256x1_S256x1024 : S256x1.Broadcasts S256x1024
  concatenates_S256x64_S256x64_S256x128_d1 : Shape.Concatenates [S256x64, S256x64] S256x128 1
  h_S256x128 : 0 < S256x128.numel
  shapeCasts_S256x128_S256x128 : S256x128.ShapeCasts S256x128
  inb_S1024x768_S1024x64_0_128 : ∀ a, (![0, 128] : Fin 2 → Nat) a + S1024x64.size a ≤ S1024x768.size a
  inb_S1024x768_S1024x64_0_192 : ∀ a, (![0, 192] : Fin 2 → Nat) a + S1024x64.size a ≤ S1024x768.size a
  inb_S1024x768_S1024x64_0_256 : ∀ a, (![0, 256] : Fin 2 → Nat) a + S1024x64.size a ≤ S1024x768.size a
  inb_S1024x768_S1024x64_0_320 : ∀ a, (![0, 320] : Fin 2 → Nat) a + S1024x64.size a ≤ S1024x768.size a
  inb_S1024x768_S1024x64_0_384 : ∀ a, (![0, 384] : Fin 2 → Nat) a + S1024x64.size a ≤ S1024x768.size a
  inb_S1024x768_S1024x64_0_448 : ∀ a, (![0, 448] : Fin 2 → Nat) a + S1024x64.size a ≤ S1024x768.size a
  inb_S1024x768_S1024x64_0_512 : ∀ a, (![0, 512] : Fin 2 → Nat) a + S1024x64.size a ≤ S1024x768.size a
  inb_S1024x768_S1024x64_0_576 : ∀ a, (![0, 576] : Fin 2 → Nat) a + S1024x64.size a ≤ S1024x768.size a
  inb_S1024x768_S1024x64_0_640 : ∀ a, (![0, 640] : Fin 2 → Nat) a + S1024x64.size a ≤ S1024x768.size a
  inb_S1024x768_S1024x64_0_704 : ∀ a, (![0, 704] : Fin 2 → Nat) a + S1024x64.size a ≤ S1024x768.size a
  inb_S768x768_S768x768_0_0 : ∀ a, (![0, 0] : Fin 2 → Nat) a + S768x768.size a ≤ S768x768.size a
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S1024x768_S1x1024x768 : S1024x768.ShapeCasts S1x1024x768
  dot_S1024x768_S768x768_S1024x768_1_1_0_0_n_n_wf : DotDims.WF S1024x768 S768x768 S1024x768 [1] [1] [0] [0] [] []
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  k0_mult1_dvd : 256 ∣ k0_mult1.toNat
  k0_off1_inb : ∀ (r : Fin 4), ∀ a, (k0_off1 (BitVec.ofNat 32 r.val)) a + S256x64.size a ≤ S1024x768.size a
  k0_off2_inb : ∀ (r : Fin 4), ∀ a, (k0_off2 (BitVec.ofNat 32 r.val)) a + S256x64.size a ≤ S1024x768.size a
  k0_off3_inb : ∀ (r : Fin 4), ∀ a, (k0_off3 (BitVec.ofNat 32 r.val)) a + S256x128.size a ≤ S1024x768.size a
  k0_off3_packedbf16 : ∀ (r : Fin 4), (Rect.unit (s := S1024x768) (k0_off3 (BitVec.ofNat 32 r.val)) S256x128.size (k0_off3_inb r)).PackedRows (EltTy.packing .bf16)
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_off4_inb : ∀ (r : Fin 4), ∀ a, (k0_off4 (BitVec.ofNat 32 r.val)) a + S256x64.size a ≤ S1024x768.size a
  k0_off5_inb : ∀ (r : Fin 4), ∀ a, (k0_off5 (BitVec.ofNat 32 r.val)) a + S256x64.size a ≤ S1024x768.size a
  k0_off6_inb : ∀ (r : Fin 4), ∀ a, (k0_off6 (BitVec.ofNat 32 r.val)) a + S256x128.size a ≤ S1024x768.size a
  k0_off6_packedbf16 : ∀ (r : Fin 4), (Rect.unit (s := S1024x768) (k0_off6 (BitVec.ofNat 32 r.val)) S256x128.size (k0_off6_inb r)).PackedRows (EltTy.packing .bf16)
  k0_mult6_dvd : 256 ∣ k0_mult6.toNat
  k0_mult7_dvd : 256 ∣ k0_mult7.toNat
  k0_mult8_dvd : 256 ∣ k0_mult8.toNat
  k0_mult9_dvd : 256 ∣ k0_mult9.toNat
  k0_off7_inb : ∀ (r : Fin 4), ∀ a, (k0_off7 (BitVec.ofNat 32 r.val)) a + S256x64.size a ≤ S1024x768.size a
  k0_off8_inb : ∀ (r : Fin 4), ∀ a, (k0_off8 (BitVec.ofNat 32 r.val)) a + S256x64.size a ≤ S1024x768.size a
  k0_off9_inb : ∀ (r : Fin 4), ∀ a, (k0_off9 (BitVec.ofNat 32 r.val)) a + S256x128.size a ≤ S1024x768.size a
  k0_off9_packedbf16 : ∀ (r : Fin 4), (Rect.unit (s := S1024x768) (k0_off9 (BitVec.ofNat 32 r.val)) S256x128.size (k0_off9_inb r)).PackedRows (EltTy.packing .bf16)
  k0_mult10_dvd : 256 ∣ k0_mult10.toNat
  k0_mult11_dvd : 256 ∣ k0_mult11.toNat
  k0_mult12_dvd : 256 ∣ k0_mult12.toNat
  k0_mult13_dvd : 256 ∣ k0_mult13.toNat
  k0_off10_inb : ∀ (r : Fin 4), ∀ a, (k0_off10 (BitVec.ofNat 32 r.val)) a + S256x64.size a ≤ S1024x768.size a
  k0_off11_inb : ∀ (r : Fin 4), ∀ a, (k0_off11 (BitVec.ofNat 32 r.val)) a + S256x64.size a ≤ S1024x768.size a
  k0_off12_inb : ∀ (r : Fin 4), ∀ a, (k0_off12 (BitVec.ofNat 32 r.val)) a + S256x128.size a ≤ S1024x768.size a
  k0_off12_packedbf16 : ∀ (r : Fin 4), (Rect.unit (s := S1024x768) (k0_off12 (BitVec.ofNat 32 r.val)) S256x128.size (k0_off12_inb r)).PackedRows (EltTy.packing .bf16)
  k0_mult14_dvd : 256 ∣ k0_mult14.toNat
  k0_mult15_dvd : 256 ∣ k0_mult15.toNat
  k0_mult16_dvd : 256 ∣ k0_mult16.toNat
  k0_mult17_dvd : 256 ∣ k0_mult17.toNat
  k0_off13_inb : ∀ (r : Fin 4), ∀ a, (k0_off13 (BitVec.ofNat 32 r.val)) a + S256x64.size a ≤ S1024x768.size a
  k0_off14_inb : ∀ (r : Fin 4), ∀ a, (k0_off14 (BitVec.ofNat 32 r.val)) a + S256x64.size a ≤ S1024x768.size a
  k0_off15_inb : ∀ (r : Fin 4), ∀ a, (k0_off15 (BitVec.ofNat 32 r.val)) a + S256x128.size a ≤ S1024x768.size a
  k0_off15_packedbf16 : ∀ (r : Fin 4), (Rect.unit (s := S1024x768) (k0_off15 (BitVec.ofNat 32 r.val)) S256x128.size (k0_off15_inb r)).PackedRows (EltTy.packing .bf16)
  k0_mult18_dvd : 256 ∣ k0_mult18.toNat
  k0_mult19_dvd : 256 ∣ k0_mult19.toNat
  k0_mult20_dvd : 256 ∣ k0_mult20.toNat
  k0_mult21_dvd : 256 ∣ k0_mult21.toNat
  k0_off16_inb : ∀ (r : Fin 4), ∀ a, (k0_off16 (BitVec.ofNat 32 r.val)) a + S256x64.size a ≤ S1024x768.size a
  k0_off17_inb : ∀ (r : Fin 4), ∀ a, (k0_off17 (BitVec.ofNat 32 r.val)) a + S256x64.size a ≤ S1024x768.size a
  k0_off18_inb : ∀ (r : Fin 4), ∀ a, (k0_off18 (BitVec.ofNat 32 r.val)) a + S256x128.size a ≤ S1024x768.size a
  k0_off18_packedbf16 : ∀ (r : Fin 4), (Rect.unit (s := S1024x768) (k0_off18 (BitVec.ofNat 32 r.val)) S256x128.size (k0_off18_inb r)).PackedRows (EltTy.packing .bf16)
  k0_mult22_dvd : 256 ∣ k0_mult22.toNat
  k0_mult23_dvd : 256 ∣ k0_mult23.toNat
  k0_mult24_dvd : 256 ∣ k0_mult24.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .bf16 = 32 ∨ (Rect.block (s := S8x1024x768) S1x1024x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S8x1024x768.size a
  hwx0_4 : ∀ i : grid0.Coords, EltTy.bits .f32 = 32 ∨ (Rect.block (s := S8x1024x768) S1x1024x768.size (cc0_transform_4 i) (hinb0_4 i)).WholeWords (EltTy.packing .f32)

variable [Facts₀]

def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_v0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x12x64 : Shape := ⟨4, ![8, 1024, 12, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩
abbrev S1x1x768 : Shape := ⟨3, ![1, 1, 768]⟩

abbrev nBuf : Space → Nat
  | .hbm => 36
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x1024x2304, .f32⟩
  | .hbm, ⟨5, _⟩ => ⟨S8x1024x768, .f32⟩
  | .hbm, ⟨6, _⟩ => ⟨S8x1024x768, .f32⟩
  | .hbm, ⟨7, _⟩ => ⟨S8x1024x768, .f32⟩
  | .hbm, ⟨8, _⟩ => ⟨S8x1024x12x64, .f32⟩
  | .hbm, ⟨9, _⟩ => ⟨S8x12x1024x64, .f32⟩
  | .hbm, ⟨10, _⟩ => ⟨S8x1024x12x64, .f32⟩
  | .hbm, ⟨11, _⟩ => ⟨S8x12x1024x64, .f32⟩
  | .hbm, ⟨12, _⟩ => ⟨S8x1024x12x64, .f32⟩
  | .hbm, ⟨13, _⟩ => ⟨S8x12x1024x64, .f32⟩
  | .hbm, ⟨14, _⟩ => ⟨S8x12x1024x1024, .f32⟩
  | .hbm, ⟨15, _⟩ => ⟨S_, .f32⟩
  | .hbm, ⟨16, _⟩ => ⟨S8x12x1024, .f32⟩
  | .hbm, ⟨17, _⟩ => ⟨S_, .f32⟩
  | .hbm, ⟨18, _⟩ => ⟨S8x12x1024, .f32⟩
  | .hbm, ⟨19, _⟩ => ⟨S8x12x1024, .f32⟩
  | .hbm, ⟨20, _⟩ => ⟨S8x12x1024x1, .f32⟩
  | .hbm, ⟨21, _⟩ => ⟨S8x12x1024x1024, .f32⟩
  | .hbm, ⟨22, _⟩ => ⟨S8x12x1024x1024, .f32⟩
  | .hbm, ⟨23, _⟩ => ⟨S8x12x1024x1024, .f32⟩
  | .hbm, ⟨24, _⟩ => ⟨S_, .f32⟩
  | .hbm, ⟨25, _⟩ => ⟨S8x12x1024, .f32⟩
  | .hbm, ⟨26, _⟩ => ⟨S8x12x1024x1, .f32⟩
  | .hbm, ⟨27, _⟩ => ⟨S8x12x1024x1024, .f32⟩
  | .hbm, ⟨28, _⟩ => ⟨S8x12x1024x1024, .f32⟩
  | .hbm, ⟨29, _⟩ => ⟨S8x12x1024x64, .f32⟩
  | .hbm, ⟨30, _⟩ => ⟨S8x1024x12x64, .f32⟩
  | .hbm, ⟨31, _⟩ => ⟨S8x1024x768, .f32⟩
  | .hbm, ⟨32, _⟩ => ⟨S8x1024x768, .f32⟩
  | .hbm, ⟨33, _⟩ => ⟨S1x1x768, .f32⟩
  | .hbm, ⟨34, _⟩ => ⟨S8x1024x768, .f32⟩
  | .hbm, ⟨35, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  slices_S8x1024x2304_S8x1024x768_0_0_0 : S8x1024x2304.Slices ![0, 0, 0] S8x1024x768
  slices_S8x1024x2304_S8x1024x768_0_0_768 : S8x1024x2304.Slices ![0, 0, 768] S8x1024x768
  slices_S8x1024x2304_S8x1024x768_0_0_1536 : S8x1024x2304.Slices ![0, 0, 1536] S8x1024x768
  shapeCasts_S8x1024x768_S8x1024x12x64 : S8x1024x768.ShapeCasts S8x1024x12x64
  transposes_S8x1024x12x64_S8x12x1024x64_0_2_1_3 : S8x1024x12x64.Transposes [0, 2, 1, 3] S8x12x1024x64
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.AttnSpec.lean ====
/-
  Multi-head self-attention of one sequence, as plain functions on the extended reals.

  A sequence is 1024 rows of 768 features. The joint projection weight has 2304 rows: rows 0..767 give the
  queries, 768..1535 the keys, 1536..2303 the values; feature column `c` of each belongs to head `c / 64`, whose
  64 columns start at `c / 64 * 64`. For a query row the scores against all 1024 key rows are the inner products
  over the head's 64 columns; the weights are `exp (s j - M) / Σ exp (s j' - M)` with `M` the largest score;
  the head's output at a column is the weighted sum of that column of the values. The result is the output
  projection of the concatenated heads plus a bias.
-/
import Idealize.ShloMosaic.PureOps.Ideal
import Idealize.ShloMosaic.Lib.ValueIdx

noncomputable section

open scoped BigOperators

namespace Cert.AttnSpec

open Idealize.ShloMosaic

/-- The value the maxima start from (the pattern of minus infinity; never evaluated). -/
abbrev negInf : EReal := Ideal.ofBits .f32 0xFF800000#32

/-- Scores of one query (64 features) against each of the 1024 keys. -/
def score (q : Fin 64 → EReal) (k : Fin 1024 → Fin 64 → EReal) (j : Fin 1024) : EReal := ∑ d : Fin 64, q d * k j d

/-- The largest of 1024 scores, folded from `negInf`. -/
def rowMax (s : Fin 1024 → EReal) : EReal := (Finset.univ : Finset (Fin 1024)).fold max negInf s

/-- The softmax weight of key `j`. -/
def weight (s : Fin 1024 → EReal) (j : Fin 1024) : EReal :=
  Ideal.div (Ideal.exp (s j - rowMax s)) (∑ j' : Fin 1024, Ideal.exp (s j' - rowMax s))

/-- One head's output for one query at feature `d`: the weighted sum of the values' column `d`. -/
def head (q : Fin 64 → EReal) (k v : Fin 1024 → Fin 64 → EReal) (d : Fin 64) : EReal :=
  ∑ j : Fin 1024, weight (score q k) j * v j d

theorem head_congr {q q' : Fin 64 → EReal} {k k' v v' : Fin 1024 → Fin 64 → EReal} (hq : ∀ d, q d = q' d)
    (hk : ∀ j d, k j d = k' j d) (hv : ∀ j d, v j d = v' j d) (d : Fin 64) : head q k v d = head q' k' v' d := by
  have e1 : q = q' := funext hq
  have e2 : k = k' := funext fun j => funext (hk j)
  have e3 : v = v' := funext fun j => funext (hv j)
  rw [e1, e2, e3]

/-- Row `n` of the sequence against row `e` of the joint projection weight. -/
def proj (X : Fin 1024 → Fin 768 → EReal) (W : Fin 2304 → Fin 768 → EReal) (n : Fin 1024) (e : Fin 2304) : EReal :=
  ∑ k : Fin 768, X n k * W e k

theorem proj_congr (X : Fin 1024 → Fin 768 → EReal) (W : Fin 2304 → Fin 768 → EReal) {n n' : Fin 1024} {e e' : Fin 2304}
    (hn : n.val = n'.val) (he : e.val = e'.val) : proj X W n e = proj X W n' e' := by
  rw [Fin.ext hn, Fin.ext he]

/-- Query feature `d` of the head that owns column `c`, for row `n`. -/
def qf (X : Fin 1024 → Fin 768 → EReal) (W : Fin 2304 → Fin 768 → EReal) (c : Fin 768) (n : Fin 1024) (d : Fin 64) : EReal :=
  proj X W n ⟨c.val / 64 * 64 + d.val, by have := c.isLt; have := d.isLt; omega⟩
/-- Key feature `d` of that head, for row `j`. -/
def kf (X : Fin 1024 → Fin 768 → EReal) (W : Fin 2304 → Fin 768 → EReal) (c : Fin 768) (j : Fin 1024) (d : Fin 64) : EReal :=
  proj X W j ⟨768 + (c.val / 64 * 64 + d.val), by have := c.isLt; have := d.isLt; omega⟩
/-- Value feature `d` of that head, for row `j`. -/
def vf (X : Fin 1024 → Fin 768 → EReal) (W : Fin 2304 → Fin 768 → EReal) (c : Fin 768) (j : Fin 1024) (d : Fin 64) : EReal :=
  proj X W j ⟨1536 + (c.val / 64 * 64 + d.val), by have := c.isLt; have := d.isLt; omega⟩

/-- The concatenated heads at row `n`, column `c`. -/
def ctx (X : Fin 1024 → Fin 768 → EReal) (W : Fin 2304 → Fin 768 → EReal) (n : Fin 1024) (c : Fin 768) : EReal :=
  head (qf X W c n) (kf X W c) (vf X W c) ⟨c.val % 64, Nat.mod_lt _ (by decide)⟩

/-- Self-attention of one sequence: the output projection of the concatenated heads, plus the bias. -/
def out (X : Fin 1024 → Fin 768 → EReal) (W : Fin 2304 → Fin 768 → EReal) (Wf : Fin 768 → Fin 768 → EReal)
    (b : Fin 768 → EReal) (n : Fin 1024) (e : Fin 768) : EReal :=
  (∑ c : Fin 768, ctx X W n c * Wf e c) + b e

end Cert.AttnSpec

end
-- ==== Proof.HeadLaw.lean ====
/-
  One attention head of the kernel body, read at an index on the extended reals: for a tile of 256 query rows
  `q` and all 1024 key and value rows `k`, `v` (64 features each), the body forms the scores `q kᵀ`, subtracts each
  row's largest score, exponentiates, divides by the row's sum and multiplies by `v`. At row `r` and feature `d`
  that is `AttnSpec.head` of row `r` of `q`. A pair of heads is written side by side into 128 columns.
-/
import proofs.«139985_j76527727280452_2_alg».proof.Proof.Gen.KernelIdeal.Skeleton
import proofs.«139985_j76527727280452_2_alg».proof.Proof.AttnSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HeadLaw

open Cert.KernelIdeal Cert.KernelIdeal.Gen Idealize.ShloMosaic Idealize.ShloMosaic.ValueIdx Cert.AttnSpec

/-! ## The operands' indices of the two products, coordinate by coordinate -/

theorem sc_l0 (i : S256x1024.Idx) (c : dot_S256x64_S1024x64_S256x1024_1_1_0_0_n_n.contr.Idx) : (dot_S256x64_S1024x64_S256x1024_1_1_0_0_n_n.lhsIdx i c 0).val = (i 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem sc_l1 (i : S256x1024.Idx) (c : dot_S256x64_S1024x64_S256x1024_1_1_0_0_n_n.contr.Idx) : (dot_S256x64_S1024x64_S256x1024_1_1_0_0_n_n.lhsIdx i c 1).val = (c ⟨0, by decide⟩).val :=
  dot_S256x64_S1024x64_S256x1024_1_1_0_0_n_n.lhsIdx_val_of_single rfl i c
theorem sc_r0 (i : S256x1024.Idx) (c : dot_S256x64_S1024x64_S256x1024_1_1_0_0_n_n.contr.Idx) : (dot_S256x64_S1024x64_S256x1024_1_1_0_0_n_n.rhsIdx i c 0).val = (i 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem sc_r1 (i : S256x1024.Idx) (c : dot_S256x64_S1024x64_S256x1024_1_1_0_0_n_n.contr.Idx) : (dot_S256x64_S1024x64_S256x1024_1_1_0_0_n_n.rhsIdx i c 1).val = (c ⟨0, by decide⟩).val :=
  dot_S256x64_S1024x64_S256x1024_1_1_0_0_n_n.rhsIdx_val_of_single rfl i c
theorem av_l0 (i : S256x64.Idx) (c : dot_S256x1024_S1024x64_S256x64_1_0_0_1_n_n.contr.Idx) : (dot_S256x1024_S1024x64_S256x64_1_0_0_1_n_n.lhsIdx i c 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem av_l1 (i : S256x64.Idx) (c : dot_S256x1024_S1024x64_S256x64_1_0_0_1_n_n.contr.Idx) : (dot_S256x1024_S1024x64_S256x64_1_0_0_1_n_n.lhsIdx i c 1).val = (c ⟨0, by decide⟩).val :=
  dot_S256x1024_S1024x64_S256x64_1_0_0_1_n_n.lhsIdx_val_of_single rfl i c
theorem av_r0 (i : S256x64.Idx) (c : dot_S256x1024_S1024x64_S256x64_1_0_0_1_n_n.contr.Idx) : (dot_S256x1024_S1024x64_S256x64_1_0_0_1_n_n.rhsIdx i c 0).val = (c ⟨0, by decide⟩).val :=
  dot_S256x1024_S1024x64_S256x64_1_0_0_1_n_n.rhsIdx_val_of_single rfl i c
theorem av_r1 (i : S256x64.Idx) (c : dot_S256x1024_S1024x64_S256x64_1_0_0_1_n_n.contr.Idx) : (dot_S256x1024_S1024x64_S256x64_1_0_0_1_n_n.rhsIdx i c 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-! ## The two products of a head -/

/-- `q kᵀ` at (r, j): the inner product of row `r` of `q` and row `j` of `k`. -/
theorem scores_apply (q : FVec Ideal S256x64 .bf16) (k : FVec Ideal S1024x64 .bf16) (r : Fin 256) (j : Fin 1024) :
    matmul dot_S256x64_S1024x64_S256x1024_1_1_0_0_n_n none q k (constant S256x1024 .f32 0x00000000#32) (ix2 r j)
      = ∑ d : Fin 64, q (ix2 r d) * k (ix2 j d) := by
  refine (Ideal.matmul_constant_zero_apply _ none q k (ix2 r j)).trans ?_
  rw [← Equiv.sum_comp (contrEquiv1 dot_S256x64_S1024x64_S256x1024_1_1_0_0_n_n 64 rfl rfl).symm]
  refine Finset.sum_congr rfl fun d _ => ?_
  have hk := contrEquiv1_symm_val dot_S256x64_S1024x64_S256x1024_1_1_0_0_n_n 64 rfl rfl d
  have el : dot_S256x64_S1024x64_S256x1024_1_1_0_0_n_n.lhsIdx (ix2 r j) ((contrEquiv1 dot_S256x64_S1024x64_S256x1024_1_1_0_0_n_n 64 rfl rfl).symm d) = ix2 r d :=
    funext fun a => Fin.ext (by
      match a with
      | ⟨0, _⟩ => exact sc_l0 _ _
      | ⟨1, _⟩ => exact (sc_l1 _ _).trans hk)
  have er : dot_S256x64_S1024x64_S256x1024_1_1_0_0_n_n.rhsIdx (ix2 r j) ((contrEquiv1 dot_S256x64_S1024x64_S256x1024_1_1_0_0_n_n 64 rfl rfl).symm d) = ix2 j d :=
    funext fun a => Fin.ext (by
      match a with
      | ⟨0, _⟩ => exact sc_r0 _ _
      | ⟨1, _⟩ => exact (sc_r1 _ _).trans hk)
  rw [el, er]

/-- `a v` at (r, d): row `r` of the weights against column `d` of the values. -/
theorem av_apply (a : FVec Ideal S256x1024 .bf16) (v : FVec Ideal S1024x64 .bf16) (r : Fin 256) (d : Fin 64) :
    matmul dot_S256x1024_S1024x64_S256x64_1_0_0_1_n_n none a v (constant S256x64 .f32 0x00000000#32) (ix2 r d)
      = ∑ j : Fin 1024, a (ix2 r j) * v (ix2 j d) := by
  refine (Ideal.matmul_constant_zero_apply _ none a v (ix2 r d)).trans ?_
  rw [← Equiv.sum_comp (contrEquiv1 dot_S256x1024_S1024x64_S256x64_1_0_0_1_n_n 1024 rfl rfl).symm]
  refine Finset.sum_congr rfl fun j _ => ?_
  have hk := contrEquiv1_symm_val dot_S256x1024_S1024x64_S256x64_1_0_0_1_n_n 1024 rfl rfl j
  have el : dot_S256x1024_S1024x64_S256x64_1_0_0_1_n_n.lhsIdx (ix2 r d) ((contrEquiv1 dot_S256x1024_S1024x64_S256x64_1_0_0_1_n_n 1024 rfl rfl).symm j) = ix2 r j :=
    funext fun a => Fin.ext (by
      match a with
      | ⟨0, _⟩ => exact av_l0 _ _
      | ⟨1, _⟩ => exact (av_l1 _ _).trans hk)
  have er : dot_S256x1024_S1024x64_S256x64_1_0_0_1_n_n.rhsIdx (ix2 r d) ((contrEquiv1 dot_S256x1024_S1024x64_S256x64_1_0_0_1_n_n 1024 rfl rfl).symm j) = ix2 j d :=
    funext fun a => Fin.ext (by
      match a with
      | ⟨0, _⟩ => exact (av_r0 _ _).trans hk
      | ⟨1, _⟩ => exact av_r1 _ _)
  rw [el, er]

/-! ## A row's largest entry and sum, kept as a column and spread back over the row -/

/-- Putting the column coordinate back into a row index. -/
theorem lift_row (h : S256x1024.Reduces [1] S256) (r : Fin 256) (k : Fin (S256x1024.size 1)) :
    h.lift (ix1 r) k = ix2 r (⟨k.val, k.isLt⟩ : Fin 1024) := by
  funext c; apply Fin.ext
  fin_cases c <;> rfl

theorem rowmax_apply (s : FVec Ideal S256x1024 .f32) (h : S256x1024.Reduces [1] S256) (hφ : FKind.Formats FTy.f32)
    (hacc : (0xFF800000#32 : BitVec 32) = FKind.maximumf.neutral .f32 hφ) (r : Fin 256) :
    multiReduction .maximumf [1] S256 s 0xFF800000#32 h hφ hacc (ix1 r) = rowMax (fun j => s (ix2 r j)) := by
  refine (Ideal.multiReduction_maximumf_single s 0xFF800000#32 h hφ hacc (ix1 r)).trans ?_
  have hf : (s ∘ h.lift (ix1 r)) = fun j : Fin 1024 => s (ix2 r j) := funext fun k => congrArg s (lift_row h r k)
  exact congrArg (fun f => Finset.fold max (Ideal.ofBits .f32 0xFF800000#32) f (Finset.univ : Finset (Fin 1024))) hf

theorem rowsum_apply (s : FVec Ideal S256x1024 .f32) (h : S256x1024.Reduces [1] S256) (hφ : FKind.Formats FTy.f32)
    (hacc : (0x00000000#32 : BitVec 32) = FKind.add.neutral .f32 hφ) (r : Fin 256) :
    multiReduction .add [1] S256 s 0x00000000#32 h hφ hacc (ix1 r) = ∑ j : Fin 1024, s (ix2 r j) := by
  refine (Ideal.multiReduction_add_single s 0x00000000#32 h hφ hacc (ix1 r)).trans ?_
  exact Finset.sum_congr rfl fun k _ => congrArg s (lift_row h r k)

/-- A vector of 256 row values, viewed as a column and spread over 1024 columns, reads its row's value everywhere. -/
theorem spread_apply {α : Type} (v : S256.Idx → α) (r : Fin 256) (j : Fin 1024) :
    broadcastTo S256x1024 (shapeCast S256x1 v shapeCasts_S256_S256x1) broadcasts_S256x1_S256x1024 (ix2 r j) = v (ix1 r) := by
  refine (broadcastTo_apply _ broadcasts_S256x1_S256x1024 (ix2 r j) (ix2 r (0 : Fin 1)) (fun a => by
    match a with
    | ⟨0, _⟩ => rfl
    | ⟨1, _⟩ => rfl)).trans ?_
  exact shapeCast_apply v shapeCasts_S256_S256x1 (ix2 r (0 : Fin 1)) (ix1 r) (by
    rw [Shape.rowMajor_val_one, Shape.rowMajor_val_two]; show r.val = r.val * 1 + 0; omega)

/-! ## One head -/

/-- The body's computation for one head of one tile: the lines of the kernel from the scores to the product with the values. -/
def headOut (q : FVec Ideal S256x64 .bf16) (k v : FVec Ideal S1024x64 .bf16) : FVec Ideal S256x64 .f32 :=
  have s : FVec Ideal S256x1024 .f32 := matmul dot_S256x64_S1024x64_S256x1024_1_1_0_0_n_n none q k (constant S256x1024 .f32 0x00000000#32)
  have mx : FVec Ideal S256 .f32 := multiReduction .maximumf [1] S256 s 0xFF800000#32 reduces_S256x1024_S256 (.inl rfl) rfl
  have p : FVec Ideal S256x1024 .f32 := exp (subf s (broadcastTo S256x1024 (shapeCast S256x1 mx shapeCasts_S256_S256x1) broadcasts_S256x1_S256x1024))
  have l : FVec Ideal S256 .f32 := multiReduction .add [1] S256 p 0x00000000#32 reduces_S256x1024_S256 (.inl rfl) rfl
  have a : FVec Ideal S256x1024 .f32 := divf p (broadcastTo S256x1024 (shapeCast S256x1 l shapeCasts_S256_S256x1) broadcasts_S256x1_S256x1024)
  matmul dot_S256x1024_S1024x64_S256x64_1_0_0_1_n_n none (truncf .bf16 a bitsLt_bf16_f32) v (constant S256x64 .f32 0x00000000#32)

theorem headOut_apply (q : FVec Ideal S256x64 .bf16) (k v : FVec Ideal S1024x64 .bf16) (r : Fin 256) (d : Fin 64) :
    headOut q k v (ix2 r d) = head (fun dd => q (ix2 r dd)) (fun j dd => k (ix2 j dd)) (fun j dd => v (ix2 j dd)) d := by
  unfold headOut
  refine (av_apply _ v r d).trans ?_
  unfold head
  refine Finset.sum_congr rfl fun j _ => ?_
  refine congrArg (· * v (ix2 j d)) ?_
  -- the weight of key j
  have hs : ∀ j' : Fin 1024, matmul dot_S256x64_S1024x64_S256x1024_1_1_0_0_n_n none q k (constant S256x1024 .f32 0x00000000#32) (ix2 r j')
      = score (fun dd => q (ix2 r dd)) (fun j dd => k (ix2 j dd)) j' := fun j' => scores_apply q k r j'
  have hm : multiReduction .maximumf [1] S256 (matmul dot_S256x64_S1024x64_S256x1024_1_1_0_0_n_n none q k (constant S256x1024 .f32 0x00000000#32)) 0xFF800000#32 reduces_S256x1024_S256 (.inl rfl) rfl (ix1 r)
      = rowMax (score (fun dd => q (ix2 r dd)) (fun j dd => k (ix2 j dd))) :=
    (rowmax_apply _ reduces_S256x1024_S256 (.inl rfl) rfl r).trans (congrArg rowMax (funext hs))
  have hp : ∀ j' : Fin 1024,
      exp (subf (matmul dot_S256x64_S1024x64_S256x1024_1_1_0_0_n_n none q k (constant S256x1024 .f32 0x00000000#32))
        (broadcastTo S256x1024 (shapeCast S256x1 (multiReduction .maximumf [1] S256 (matmul dot_S256x64_S1024x64_S256x1024_1_1_0_0_n_n none q k (constant S256x1024 .f32 0x00000000#32)) 0xFF800000#32 reduces_S256x1024_S256 (.inl rfl) rfl) shapeCasts_S256_S256x1) broadcasts_S256x1_S256x1024)) (ix2 r j')
      = Ideal.exp (score (fun dd => q (ix2 r dd)) (fun j dd => k (ix2 j dd)) j' - rowMax (score (fun dd => q (ix2 r dd)) (fun j dd => k (ix2 j dd)))) := fun j' => by
    show Ideal.exp (_ - _) = _
    rw [hs j', spread_apply, hm]
  show Ideal.div _ _ = _
  unfold weight
  rw [hp j, spread_apply]
  refine congrArg (Ideal.div _) ?_
  refine (rowsum_apply _ reduces_S256x1024_S256 (.inl rfl) rfl r).trans ?_
  exact Finset.sum_congr rfl fun j' _ => hp j'

end Cert.KernelIdeal.HeadLaw

end
-- ==== Proof.TileLaw.lean ====
/-
  A tile of the kernel body: 256 query rows of a PAIR of heads, written side by side into 128 columns. Column
  `cc < 64` of row `r` is the first head's output at feature `cc`, column `cc ≥ 64` the second head's at `cc - 64`.
  The body's 24 tiles (6 pairs of heads by 4 row tiles) are all this one function of the six operands read
  from the projections; the printed text names the intermediate values of some tiles separately, and each such
  composition is the same term.
-/
import proofs.«139985_j76527727280452_2_alg».proof.Proof.HeadLaw

set_option maxRecDepth 16384

noncomputable section

open scoped BigOperators

namespace Cert.KernelIdeal.TileLaw

open Cert.KernelIdeal Cert.KernelIdeal.Gen Idealize.ShloMosaic Idealize.ShloMosaic.ValueIdx Cert.AttnSpec Cert.KernelIdeal.HeadLaw

/-- The first tile's text: the two heads side by side. -/
theorem tile_eq (q0 q1 : FVec Ideal S256x64 .bf16) (k0 k1 v0 v1 : FVec Ideal S1024x64 .bf16) :
    k0_pay5 (F := Ideal) q0 q1 k0 k1 v0 v1
      = shapeCast S256x128 (truncf .bf16 (concatenate S256x128 1 [⟨S256x64, headOut q0 k0 v0⟩, ⟨S256x64, headOut q1 k1 v1⟩]
          concatenates_S256x64_S256x64_S256x128_d1) bitsLt_bf16_f32) shapeCasts_S256x128_S256x128 := rfl

theorem tile_left (q0 q1 : FVec Ideal S256x64 .bf16) (k0 k1 v0 v1 : FVec Ideal S1024x64 .bf16) (r : Fin 256) (cc : Fin 128)
    (h : cc.val < 64) :
    k0_pay5 (F := Ideal) q0 q1 k0 k1 v0 v1 (ix2 r cc)
      = head (fun dd => q0 (ix2 r dd)) (fun j dd => k0 (ix2 j dd)) (fun j dd => v0 (ix2 j dd)) ⟨cc.val, h⟩ := by
  rw [tile_eq, shapeCast_self]
  refine (concatenate_pair_apply_left (1 : Fin 2) (headOut q0 k0 v0) (headOut q1 k1 v1) concatenates_S256x64_S256x64_S256x128_d1
    (ix2 r cc) rfl (ix2 r (⟨cc.val, h⟩ : Fin 64)) (fun b => by
      match b with
      | ⟨0, _⟩ => rfl
      | ⟨1, _⟩ => rfl)).trans ?_
  exact headOut_apply q0 k0 v0 r ⟨cc.val, h⟩

theorem tile_right (q0 q1 : FVec Ideal S256x64 .bf16) (k0 k1 v0 v1 : FVec Ideal S1024x64 .bf16) (r : Fin 256) (cc : Fin 128)
    (h : 64 ≤ cc.val) :
    k0_pay5 (F := Ideal) q0 q1 k0 k1 v0 v1 (ix2 r cc)
      = head (fun dd => q1 (ix2 r dd)) (fun j dd => k1 (ix2 j dd)) (fun j dd => v1 (ix2 j dd)) ⟨cc.val - 64, by have := cc.isLt; omega⟩ := by
  rw [tile_eq, shapeCast_self]
  refine (concatenate_pair_apply_right (1 : Fin 2) (headOut q0 k0 v0) (headOut q1 k1 v1) concatenates_S256x64_S256x64_S256x128_d1
    (ix2 r cc) rfl rfl (ix2 r (⟨cc.val - 64, by have := cc.isLt; omega⟩ : Fin 64)) (fun b hb => by
      match b with
      | ⟨0, _⟩ => rfl
      | ⟨1, _⟩ => exact absurd rfl hb) (by show cc.val - 64 + 64 = cc.val; omega)).trans ?_
  exact headOut_apply q1 k1 v1 r _

/-! ## The other 23 tiles are the same function of their operands -/

section
variable {F : FTy → Type} [FloatOps F]
variable (q0 q1 : Vec F S256x64 .bf16) (k0 k1 v0 v1 : Vec F S1024x64 .bf16)

theorem tile6_eq : k0_pay6 q0 q1 k0 k1 v0 v1 = k0_pay5 q0 q1 k0 k1 v0 v1 := rfl
theorem tile7_eq : k0_pay7 q0 q1 k0 k1 v0 v1 = k0_pay5 q0 q1 k0 k1 v0 v1 := rfl
theorem tile8_eq : k0_pay8 q0 q1 k0 k1 v0 v1 = k0_pay5 q0 q1 k0 k1 v0 v1 := rfl
theorem tile9_eq : k0_pay9 q0 q1 k0 k1 v0 v1 = k0_pay5 q0 q1 k0 k1 v0 v1 := rfl
theorem tile10_eq : k0_pay10 q0 q1 k0 k1 v0 v1 = k0_pay5 q0 q1 k0 k1 v0 v1 := rfl
theorem tile11_eq : k0_pay11 q0 q1 k0 k1 v0 v1 = k0_pay5 q0 q1 k0 k1 v0 v1 := rfl
theorem tile13_eq : k0_pay13 (k0_pay12 q0 q1 k0 k1 v0 v1) = k0_pay5 q0 q1 k0 k1 v0 v1 := rfl
theorem tile15_eq : k0_pay15 (k0_pay14 q0 q1 k0 k1 v0 v1) = k0_pay5 q0 q1 k0 k1 v0 v1 := rfl
theorem tile17_eq : k0_pay17 (k0_pay16 q0 q1 k0 k1 v0 v1) = k0_pay5 q0 q1 k0 k1 v0 v1 := rfl
theorem tile20_eq : k0_pay20 v1 (k0_pay18 q0 k0 v0) (k0_pay19 q1 k1) (constant S256x64 .f32 0#32) = k0_pay5 q0 q1 k0 k1 v0 v1 := rfl
theorem tile23_eq : k0_pay23 v1 (k0_pay21 q0 k0 v0) (k0_pay22 q1 k1) = k0_pay5 q0 q1 k0 k1 v0 v1 := rfl
theorem tile27_eq : k0_pay27 v1 (k0_pay24 q0 k0 v0) (k0_pay25 q1 k1) (k0_pay26 q1 k1) = k0_pay5 q0 q1 k0 k1 v0 v1 := rfl
theorem tile30_eq : k0_pay30 v1 (k0_pay28 q0 k0 v0) (k0_pay29 q1 k1) = k0_pay5 q0 q1 k0 k1 v0 v1 := rfl
theorem tile34_eq : k0_pay34 v1 (k0_pay31 q0 k0 v0) (k0_pay32 q1 k1) (k0_pay33 q1 k1) = k0_pay5 q0 q1 k0 k1 v0 v1 := rfl
theorem tile38_eq : k0_pay38 v1 (k0_pay35 q0 k0 v0) (k0_pay36 q1 k1) (k0_pay37 q1 k1) = k0_pay5 q0 q1 k0 k1 v0 v1 := rfl
theorem tile40_eq : k0_pay40 q1 k1 v1 (k0_pay39 q0 k0 v0) (constant S256x1024 .f32 0#32) = k0_pay5 q0 q1 k0 k1 v0 v1 := rfl
theorem tile42_eq : k0_pay42 q1 k1 v0 v1 (k0_pay41 q0 k0) (constant S256x64 .f32 0#32) = k0_pay5 q0 q1 k0 k1 v0 v1 := rfl
theorem tile44_eq : k0_pay44 q1 k1 v0 v1 (k0_pay43 q0 k0) = k0_pay5 q0 q1 k0 k1 v0 v1 := rfl
theorem tile47_eq : k0_pay47 q1 k1 v0 v1 (k0_pay45 q0 k0) (k0_pay46 q0 k0) = k0_pay5 q0 q1 k0 k1 v0 v1 := rfl
theorem tile49_eq : k0_pay49 q1 k1 v0 v1 (k0_pay48 q0 k0) = k0_pay5 q0 q1 k0 k1 v0 v1 := rfl
theorem tile52_eq : k0_pay52 q1 k1 v0 v1 (k0_pay50 q0 k0) (k0_pay51 q0 k0) = k0_pay5 q0 q1 k0 k1 v0 v1 := rfl
theorem tile55_eq : k0_pay55 q1 k1 v0 v1 (k0_pay53 q0 k0) (k0_pay54 q0 k0) = k0_pay5 q0 q1 k0 k1 v0 v1 := rfl
theorem tile57_eq : k0_pay57 q1 k1 v0 v1 (k0_pay56 q0 k0) = k0_pay5 q0 q1 k0 k1 v0 v1 := rfl

end

end Cert.KernelIdeal.TileLaw

end
-- ==== Proof.ProjLaw.lean ====
/-
  The two kinds of projection in the kernel body, read at an index on the extended reals. The joint projection of
  the sequence block `x` ([1,1024,768]) against a 768-row part `w` of the weight is, at row `n` and feature `e`,
  `Σ_k x[0,n,k] · w[e,k]` (queries, keys and values are this one function of their part). The output projection
  of the concatenated heads `o` against `wf`, plus the bias row `b` ([1,768]) spread down the rows, is at
  [0,n,e] `Σ_c o[n,c] · wf[e,c] + b[0,e]`.
-/
import proofs.«139985_j76527727280452_2_alg».proof.Proof.Gen.KernelIdeal.Skeleton
import proofs.«139985_j76527727280452_2_alg».proof.Proof.AttnSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProjLaw

open Cert.KernelIdeal Cert.KernelIdeal.Gen Idealize.ShloMosaic Idealize.ShloMosaic.ValueIdx Cert.AttnSpec

/-! ## The operands' indices of a [1024,768] × [768,768]ᵀ product -/

theorem pj_l0 (i : S1024x768.Idx) (c : dot_S1024x768_S768x768_S1024x768_1_1_0_0_n_n.contr.Idx) : (dot_S1024x768_S768x768_S1024x768_1_1_0_0_n_n.lhsIdx i c 0).val = (i 0).val := by
  unfold DotDims.lhsIdx
  rw [dif_neg (show ¬(0 : Fin S1024x768.rank) ∈ dot_S1024x768_S768x768_S1024x768_1_1_0_0_n_n.lhsBatch by decide), dif_pos (show (0 : Fin S1024x768.rank) ∈ dot_S1024x768_S768x768_S1024x768_1_1_0_0_n_n.lhsNonContracting by decide)]
  rfl
theorem pj_l1 (i : S1024x768.Idx) (c : dot_S1024x768_S768x768_S1024x768_1_1_0_0_n_n.contr.Idx) : (dot_S1024x768_S768x768_S1024x768_1_1_0_0_n_n.lhsIdx i c 1).val = (c ⟨0, by decide⟩).val :=
  dot_S1024x768_S768x768_S1024x768_1_1_0_0_n_n.lhsIdx_val_of_single rfl i c
theorem pj_r0 (i : S1024x768.Idx) (c : dot_S1024x768_S768x768_S1024x768_1_1_0_0_n_n.contr.Idx) : (dot_S1024x768_S768x768_S1024x768_1_1_0_0_n_n.rhsIdx i c 0).val = (i 1).val := by
  unfold DotDims.rhsIdx
  rw [dif_neg (show ¬(0 : Fin S768x768.rank) ∈ dot_S1024x768_S768x768_S1024x768_1_1_0_0_n_n.rhsBatch by decide), dif_pos (show (0 : Fin S768x768.rank) ∈ dot_S1024x768_S768x768_S1024x768_1_1_0_0_n_n.rhsNonContracting by decide)]
  rfl
theorem pj_r1 (i : S1024x768.Idx) (c : dot_S1024x768_S768x768_S1024x768_1_1_0_0_n_n.contr.Idx) : (dot_S1024x768_S768x768_S1024x768_1_1_0_0_n_n.rhsIdx i c 1).val = (c ⟨0, by decide⟩).val :=
  dot_S1024x768_S768x768_S1024x768_1_1_0_0_n_n.rhsIdx_val_of_single rfl i c

/-- `a wᵀ` at (n, e). -/
theorem mm_apply (a : FVec Ideal S1024x768 .bf16) (w : FVec Ideal S768x768 .bf16) (n : Fin 1024) (e : Fin 768) :
    matmul dot_S1024x768_S768x768_S1024x768_1_1_0_0_n_n none a w (constant S1024x768 .f32 0x00000000#32) (ix2 n e)
      = ∑ k : Fin 768, a (ix2 n k) * w (ix2 e k) := by
  refine (Ideal.matmul_constant_zero_apply _ none a w (ix2 n e)).trans ?_
  rw [← Equiv.sum_comp (contrEquiv1 dot_S1024x768_S768x768_S1024x768_1_1_0_0_n_n 768 rfl rfl).symm]
  refine Finset.sum_congr rfl fun k _ => ?_
  have hk := contrEquiv1_symm_val dot_S1024x768_S768x768_S1024x768_1_1_0_0_n_n 768 rfl rfl k
  have el : dot_S1024x768_S768x768_S1024x768_1_1_0_0_n_n.lhsIdx (ix2 n e) ((contrEquiv1 dot_S1024x768_S768x768_S1024x768_1_1_0_0_n_n 768 rfl rfl).symm k) = ix2 n k :=
    funext fun a => Fin.ext (by
      match a with
      | ⟨0, _⟩ => exact pj_l0 _ _
      | ⟨1, _⟩ => exact (pj_l1 _ _).trans hk)
  have er : dot_S1024x768_S768x768_S1024x768_1_1_0_0_n_n.rhsIdx (ix2 n e) ((contrEquiv1 dot_S1024x768_S768x768_S1024x768_1_1_0_0_n_n 768 rfl rfl).symm k) = ix2 e k :=
    funext fun a => Fin.ext (by
      match a with
      | ⟨0, _⟩ => exact pj_r0 _ _
      | ⟨1, _⟩ => exact (pj_r1 _ _).trans hk)
  rw [el, er]

/-- The block [1,1024,768] viewed as [1024,768]. -/
theorem dropUnit_apply {α : Type} (x : S1x1024x768.Idx → α) (n : Fin 1024) (k : Fin 768) :
    shapeCast S1024x768 x shapeCasts_S1x1024x768_S1024x768 (ix2 n k) = x (ix3 (0 : Fin 1) n k) :=
  shapeCast_apply x shapeCasts_S1x1024x768_S1024x768 (ix2 n k) (ix3 (0 : Fin 1) n k) (by
    rw [Shape.rowMajor_val_three, Shape.rowMajor_val_two]; show (0 * 1024 + n.val) * 768 + k.val = n.val * 768 + k.val; omega)

/-- The joint projection against one 768-row part of the weight. -/
theorem proj_apply (x : FVec Ideal S1x1024x768 .bf16) (w : FVec Ideal S768x768 .bf16) (n : Fin 1024) (e : Fin 768) :
    k0_pay2 (F := Ideal) x w (ix2 n e) = ∑ k : Fin 768, x (ix3 (0 : Fin 1) n k) * w (ix2 e k) := by
  unfold k0_pay2 k0_pay1
  rw [shapeCast_self, shapeCast_self]
  refine (mm_apply _ w n e).trans ?_
  exact Finset.sum_congr rfl fun k _ => congrArg (· * w (ix2 e k)) (dropUnit_apply x n k)

theorem keys_eq {F : FTy → Type} [FloatOps F] (x : Vec F S1x1024x768 .bf16) (w : Vec F S768x768 .bf16) : k0_pay3 x w = k0_pay2 x w := rfl
theorem values_eq {F : FTy → Type} [FloatOps F] (x : Vec F S1x1024x768 .bf16) (w : Vec F S768x768 .bf16) : k0_pay4 x w = k0_pay2 x w := rfl

/-- The output projection plus the bias, stored as a [1,1024,768] block. -/
theorem outproj_apply (o : FVec Ideal S1024x768 .bf16) (wf : FVec Ideal S768x768 .bf16) (b : FVec Ideal S1x768 .f32)
    (z : Fin 1) (n : Fin 1024) (e : Fin 768) :
    k0_pay58 (F := Ideal) o wf b (ix3 z n e) = (∑ c : Fin 768, o (ix2 n c) * wf (ix2 e c)) + b (ix2 (0 : Fin 1) e) := by
  unfold k0_pay58
  rw [shapeCast_self, shapeCast_self]
  refine (shapeCast_apply _ shapeCasts_S1024x768_S1x1024x768 (ix3 z n e) (ix2 n e) (by
    rw [Shape.rowMajor_val_three, Shape.rowMajor_val_two]
    have hz : z.val = 0 := by omega
    show n.val * 768 + e.val = (z.val * 1024 + n.val) * 768 + e.val; rw [hz]; omega)).trans ?_
  show _ + _ = _
  rw [mm_apply]
  refine congrArg (_ + ·) ?_
  exact broadcastTo_apply b broadcasts_S1x768_S1024x768 (ix2 n e) (ix2 (0 : Fin 1) e) (fun a => by
    match a with
    | ⟨0, _⟩ => rfl
    | ⟨1, _⟩ => rfl)

end Cert.KernelIdeal.ProjLaw

end
-- ==== Proof.Block.lean ====
/-
  What the kernel body leaves in its output block, as one function of its four input blocks: self-attention of
  the sequence block. The body first stores the three projections of the block into three scratch arrays, then
  for each of the 24 tiles (6 pairs of heads by 4 tiles of 256 rows) reads the tile's query rows and the pair's
  key and value columns back, and stores the pair's outputs into a fourth scratch array; at last it reads that
  array whole and stores its output projection plus the bias. Every tile's store is the block of one function
  (the concatenated heads) that its rectangle names, so the fourth scratch array reads back as that function.
-/
import proofs.«139985_j76527727280452_2_alg».proof.Proof.Gen.KernelIdeal.Frame
import proofs.«139985_j76527727280452_2_alg».proof.Proof.TileLaw
import proofs.«139985_j76527727280452_2_alg».proof.Proof.ProjLaw

set_option maxRecDepth 16384

noncomputable section

open scoped BigOperators

namespace Cert.KernelIdeal.Block

open Cert.KernelIdeal Cert.KernelIdeal.Gen Idealize.ShloMosaic Idealize.ShloMosaic.ValueIdx Cert.AttnSpec
open Cert.KernelIdeal.HeadLaw Cert.KernelIdeal.TileLaw Cert.KernelIdeal.ProjLaw
open Idealize.ShloMosaic.TcCoe Idealize.ShloMosaic.Tactic Idealize.SL.Sem

/-! ## The blocks as plain functions -/

/-- The sequence block's row `n`, feature `k`. -/
def Xf (x0 : FVec Ideal S1x1024x768 .bf16) : Fin 1024 → Fin 768 → EReal := fun n k => x0 (ix3 (0 : Fin 1) n k)
/-- The joint projection weight. -/
def Wf (x1 : FVec Ideal S2304x768 .bf16) : Fin 2304 → Fin 768 → EReal := fun e k => x1 (ix2 e k)
/-- The output projection weight. -/
def Of (x2 : FVec Ideal S768x768 .bf16) : Fin 768 → Fin 768 → EReal := fun e c => x2 (ix2 e c)
/-- The bias row. -/
def Bf (x3 : FVec Ideal S1x768 .f32) : Fin 768 → EReal := fun e => x3 (ix2 (0 : Fin 1) e)

/-- The concatenated heads of the block, as a [1024,768] array. -/
def ctxArr (x0 : FVec Ideal S1x1024x768 .bf16) (x1 : FVec Ideal S2304x768 .bf16) : S1024x768.Idx → EReal :=
  fun y => ctx (Xf x0) (Wf x1) (y 0) (y 1)

theorem hz2 : (![0, 0] : Fin 2 → Nat) = fun _ => 0 := funext fun a => by fin_cases a <;> rfl
theorem hz3 : (![0, 0, 0] : Fin 3 → Nat) = fun _ => 0 := funext fun a => by fin_cases a <;> rfl

/-- An index of a rectangle of the [1024,768] scratch array, by coordinates. -/
theorem unit_idx2 {s0 s1 : ℕ} (r0 c0 : ℕ) (inb : ∀ a, ![r0, c0] a + ![s0, s1] a ≤ S1024x768.size a) (a : Fin s0) (b : Fin s1)
    (h0 : r0 + a.val < 1024) (h1 : c0 + b.val < 768) :
    (Rect.unit (s := S1024x768) ![r0, c0] ![s0, s1] inb).toLoadRect.idx (ix2 a b) = ix2 (⟨r0 + a.val, h0⟩ : Fin 1024) (⟨c0 + b.val, h1⟩ : Fin 768) :=
  funext fun d => Fin.ext (by
    match d with
    | ⟨0, _⟩ => show r0 + 1 * a.val = r0 + a.val; omega
    | ⟨1, _⟩ => show c0 + 1 * b.val = c0 + b.val; omega)

/-- A projection read back from its scratch array: the part of the weight starting at row `o`. -/
theorem part_apply (x0 : FVec Ideal S1x1024x768 .bf16) (x1 : FVec Ideal S2304x768 .bf16) (o : ℕ) (ho : o + 768 ≤ 2304)
    (inbw : ∀ a, ![o, 0] a + S768x768.size a ≤ S2304x768.size a) (n : Fin 1024) (e : Fin 768) :
    k0_pay2 (F := Ideal) x0 (View.ld x1 (Rect.unit (s := S2304x768) ![o, 0] S768x768.size inbw)) (ix2 n e)
      = proj (Xf x0) (Wf x1) n ⟨o + e.val, by have := e.isLt; omega⟩ := by
  refine (proj_apply x0 _ n e).trans ?_
  unfold proj Xf Wf
  refine Finset.sum_congr rfl fun k _ => congrArg (x0 (ix3 0 n k) * ·) ?_
  show x1 ((Rect.unit (s := S2304x768) ![o, 0] S768x768.size inbw).toLoadRect.idx (ix2 e k)) = x1 (ix2 ⟨o + e.val, _⟩ k)
  refine congrArg x1 (funext fun a => Fin.ext ?_)
  match a with
  | ⟨0, _⟩ => show o + 1 * e.val = o + e.val; omega
  | ⟨1, _⟩ => show 0 + 1 * k.val = k.val; omega

/-- One tile's store is the block of the concatenated heads at its rectangle: rows `r0 .. r0+255`, columns
    `c0 .. c0+127` (a pair of heads: `c0` a multiple of 128). -/
theorem piece_ok (x0 : FVec Ideal S1x1024x768 .bf16) (x1 : FVec Ideal S2304x768 .bf16) (r0 c0 : ℕ)
    (hr0 : r0 + 256 ≤ 1024) (hc0 : c0 + 128 ≤ 768) (hal : c0 % 128 = 0)
    (inbq : ∀ a, ![0, 0] a + S768x768.size a ≤ S2304x768.size a)
    (inbk : ∀ a, ![768, 0] a + S768x768.size a ≤ S2304x768.size a)
    (inbv : ∀ a, ![1536, 0] a + S768x768.size a ≤ S2304x768.size a)
    (iq0 : ∀ a, ![r0, c0] a + S256x64.size a ≤ S1024x768.size a)
    (iq1 : ∀ a, ![r0, c0 + 64] a + S256x64.size a ≤ S1024x768.size a)
    (ik0 : ∀ a, ![0, c0] a + S1024x64.size a ≤ S1024x768.size a)
    (ik1 : ∀ a, ![0, c0 + 64] a + S1024x64.size a ≤ S1024x768.size a)
    (iv0 : ∀ a, ![0, c0] a + S1024x64.size a ≤ S1024x768.size a)
    (iv1 : ∀ a, ![0, c0 + 64] a + S1024x64.size a ≤ S1024x768.size a)
    (io : ∀ a, ![r0, c0] a + S256x128.size a ≤ S1024x768.size a)
    (T : FVec Ideal S256x128 .bf16)
    (hT : T = k0_pay5 (F := Ideal)
      (fun j => k0_pay2 (F := Ideal) x0 (View.ld x1 (Rect.unit (s := S2304x768) ![0, 0] S768x768.size inbq)) ((Rect.unit (s := S1024x768) ![r0, c0] S256x64.size iq0).toLoadRect.idx j))
      (fun j => k0_pay2 (F := Ideal) x0 (View.ld x1 (Rect.unit (s := S2304x768) ![0, 0] S768x768.size inbq)) ((Rect.unit (s := S1024x768) ![r0, c0 + 64] S256x64.size iq1).toLoadRect.idx j))
      (fun j => k0_pay3 (F := Ideal) x0 (View.ld x1 (Rect.unit (s := S2304x768) ![768, 0] S768x768.size inbk)) ((Rect.unit (s := S1024x768) ![0, c0] S1024x64.size ik0).toLoadRect.idx j))
      (fun j => k0_pay3 (F := Ideal) x0 (View.ld x1 (Rect.unit (s := S2304x768) ![768, 0] S768x768.size inbk)) ((Rect.unit (s := S1024x768) ![0, c0 + 64] S1024x64.size ik1).toLoadRect.idx j))
      (fun j => k0_pay4 (F := Ideal) x0 (View.ld x1 (Rect.unit (s := S2304x768) ![1536, 0] S768x768.size inbv)) ((Rect.unit (s := S1024x768) ![0, c0] S1024x64.size iv0).toLoadRect.idx j))
      (fun j => k0_pay4 (F := Ideal) x0 (View.ld x1 (Rect.unit (s := S2304x768) ![1536, 0] S768x768.size inbv)) ((Rect.unit (s := S1024x768) ![0, c0 + 64] S1024x64.size iv1).toLoadRect.idx j))) :
    ∀ x : S256x128.Idx, T x = ctxArr x0 x1 ((Rect.unit (s := S1024x768) ![r0, c0] S256x128.size io).emb x) := by
  intro x
  obtain ⟨r, cc, rfl⟩ : ∃ (r : Fin 256) (cc : Fin 128), x = ix2 r cc := ⟨x 0, x 1, eq_ix2 x⟩
  have hr := r.isLt
  have hcc := cc.isLt
  have he : (Rect.unit (s := S1024x768) ![r0, c0] S256x128.size io).emb (ix2 r cc)
      = ix2 (⟨r0 + r.val, by omega⟩ : Fin 1024) (⟨c0 + cc.val, by omega⟩ : Fin 768) :=
    unit_idx2 (s0 := 256) (s1 := 128) r0 c0 io r cc _ _
  rw [he, hT]
  show _ = ctx (Xf x0) (Wf x1) ⟨r0 + r.val, _⟩ ⟨c0 + cc.val, _⟩
  unfold ctx
  by_cases h : cc.val < 64
  · refine (tile_left _ _ _ _ _ _ r cc h).trans ?_
    have hd : (⟨cc.val, h⟩ : Fin 64) = ⟨(c0 + cc.val) % 64, Nat.mod_lt _ (by decide)⟩ := Fin.ext (by show cc.val = (c0 + cc.val) % 64; omega)
    rw [hd]
    refine head_congr (fun dd => ?_) (fun j dd => ?_) (fun j dd => ?_) _
    · have hdd := dd.isLt
      refine (congrArg (k0_pay2 (F := Ideal) x0 _) (unit_idx2 (s0 := 256) (s1 := 64) r0 c0 iq0 r dd (by omega) (by omega))).trans ?_
      refine (part_apply x0 x1 0 (by omega) inbq _ _).trans ?_
      unfold qf
      exact proj_congr _ _ rfl (by show 0 + (c0 + dd.val) = (c0 + cc.val) / 64 * 64 + dd.val; omega)
    · have hdd := dd.isLt
      have hj := j.isLt
      refine (congrArg (k0_pay3 (F := Ideal) x0 _) (unit_idx2 (s0 := 1024) (s1 := 64) 0 c0 ik0 j dd (by omega) (by omega))).trans ?_
      refine (part_apply x0 x1 768 (by omega) inbk _ _).trans ?_
      unfold kf
      exact proj_congr _ _ (by show 0 + j.val = j.val; omega) (by show 768 + (c0 + dd.val) = 768 + ((c0 + cc.val) / 64 * 64 + dd.val); omega)
    · have hdd := dd.isLt
      have hj := j.isLt
      refine (congrArg (k0_pay4 (F := Ideal) x0 _) (unit_idx2 (s0 := 1024) (s1 := 64) 0 c0 iv0 j dd (by omega) (by omega))).trans ?_
      refine (part_apply x0 x1 1536 (by omega) inbv _ _).trans ?_
      unfold vf
      exact proj_congr _ _ (by show 0 + j.val = j.val; omega) (by show 1536 + (c0 + dd.val) = 1536 + ((c0 + cc.val) / 64 * 64 + dd.val); omega)
  · have h' : 64 ≤ cc.val := by omega
    refine (tile_right _ _ _ _ _ _ r cc h').trans ?_
    have hd : (⟨cc.val - 64, by omega⟩ : Fin 64) = ⟨(c0 + cc.val) % 64, Nat.mod_lt _ (by decide)⟩ := Fin.ext (by show cc.val - 64 = (c0 + cc.val) % 64; omega)
    rw [hd]
    refine head_congr (fun dd => ?_) (fun j dd => ?_) (fun j dd => ?_) _
    · have hdd := dd.isLt
      refine (congrArg (k0_pay2 (F := Ideal) x0 _) (unit_idx2 (s0 := 256) (s1 := 64) r0 (c0 + 64) iq1 r dd (by omega) (by omega))).trans ?_
      refine (part_apply x0 x1 0 (by omega) inbq _ _).trans ?_
      unfold qf
      exact proj_congr _ _ rfl (by show 0 + (c0 + 64 + dd.val) = (c0 + cc.val) / 64 * 64 + dd.val; omega)
    · have hdd := dd.isLt
      have hj := j.isLt
      refine (congrArg (k0_pay3 (F := Ideal) x0 _) (unit_idx2 (s0 := 1024) (s1 := 64) 0 (c0 + 64) ik1 j dd (by omega) (by omega))).trans ?_
      refine (part_apply x0 x1 768 (by omega) inbk _ _).trans ?_
      unfold kf
      exact proj_congr _ _ (by show 0 + j.val = j.val; omega) (by show 768 + (c0 + 64 + dd.val) = 768 + ((c0 + cc.val) / 64 * 64 + dd.val); omega)
    · have hdd := dd.isLt
      have hj := j.isLt
      refine (congrArg (k0_pay4 (F := Ideal) x0 _) (unit_idx2 (s0 := 1024) (s1 := 64) 0 (c0 + 64) iv1 j dd (by omega) (by omega))).trans ?_
      refine (part_apply x0 x1 1536 (by omega) inbv _ _).trans ?_
      unfold vf
      exact proj_congr _ _ (by show 0 + j.val = j.val; omega) (by show 1536 + (c0 + 64 + dd.val) = 1536 + ((c0 + cc.val) / 64 * 64 + dd.val); omega)

/-- The body's output block: self-attention of the sequence block. -/
theorem block_eq (c : Dev nD) (i : grid0.Coords) (arg1 : Memref sig .tc .vmem S1x1024x768 .bf16) (harg1 : arg1.IsWhole) (arg2 : Memref sig .tc .vmem S2304x768 .bf16) (harg2 : arg2.IsWhole) (arg3 : Memref sig .tc .vmem S768x768 .bf16) (harg3 : arg3.IsWhole) (arg4 : Memref sig .tc .vmem S1x768 .f32) (harg4 : arg4.IsWhole) (arg5 : Memref sig .tc .vmem S1x1024x768 .f32) (harg5 : arg5.IsWhole) (arg6 : Memref sig .tc .vmem S1024x768 .bf16) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole)
    (x0 : Vec Ideal S1x1024x768 .bf16) (x1 : Vec Ideal S2304x768 .bf16) (x2 : Vec Ideal S768x768 .bf16) (x3 : Vec Ideal S1x768 .f32) :
    out0_A_4 (F := Ideal) c i arg1 harg1 arg2 harg2 arg3 harg3 arg4 harg4 arg5 harg5 arg6 harg6 arg7 harg7 arg8 harg8 arg9 harg9 x0 x1 x2 x3 = fun y => out (Xf x0) (Wf x1) (Of x2) (Bf x3) (y 1) (y 2) := by
  unfold out0_A_4
  rw [View.read_writes_eq_canon _ _ _ (cover0_A_4 c i arg1 harg1 arg2 harg2 arg3 harg3 arg4 harg4 arg5 harg5 arg6 harg6 arg7 harg7 arg8 harg8 arg9 harg9 x0 x1 x2 x3)]
  unfold kernelRun0_A
  dsimp only
  sl_unfold_run_names
  rw [View.canon_unit_zero hz3]
  simp only [View.readAt_eq_ld, harg1.read_unread, harg2.read_unread, harg3.read_unread, harg4.read_unread,
    View.ld_unit_zero (S := S1x1024x768) hz3, View.ld_unit_zero (S := S768x768) hz2, View.ld_unit_zero (S := S1x768) hz2,
    View.readCov_eq_canon', View.canon_unit_zero (S := S1024x768) hz2]
  funext y
  obtain ⟨z, n, e, rfl⟩ : ∃ (z : Fin 1) (n : Fin 1024) (e : Fin 768), y = ix3 z n e := ⟨y 0, y 1, y 2, eq_ix3 y⟩
  refine (outproj_apply _ x2 x3 z n e).trans ?_
  unfold out
  refine congrArg (· + Bf x3 e) ?_
  refine Finset.sum_congr rfl fun c' _ => congrArg (· * x2 (ix2 e c')) ?_
  have hn := n.isLt
  have hc' := c'.isLt
  refine (congrArg (View.canon _) (unit_idx2 (s0 := 1024) (s1 := 768) 0 0 (by decide) n c' (by omega) (by omega))).trans ?_
  refine (View.canon_apply_of_pieces (S := S1024x768) (ctxArr x0 x1) _ ?hp _ (View.cover_of_tiledL (s := S1024x768) _ S256x128.size (by sl_kernel_rfl) _)).trans ?_
  case hp =>
    repeat' refine List.forall_mem_cons.2 ⟨?_, ?_⟩
    · exact piece_ok x0 x1 768 640 (by omega) (by omega) (by omega) (by decide) (by decide) (by decide) (by decide) (by decide) (by decide) (by decide) (by decide) (by decide) (by decide) _ (tile57_eq _ _ _ _ _ _)
    · exact piece_ok x0 x1 512 640 (by omega) (by omega) (by omega) (by decide) (by decide) (by decide) (by decide) (by decide) (by decide) (by decide) (by decide) (by decide) (by decide) _ (tile55_eq _ _ _ _ _ _)
    · exact piece_ok x0 x1 256 640 (by omega) (by omega) (by omega) (by decide) (by decide) (by decide) (by decide) (by decide) (by decide) (by decide) (by decide) (by decide) (by decide) _ (tile52_eq _ _ _ _ _ _)
    · exact piece_ok x0 x1 0 640 (by omega) (by omega) (by omega) (by decide) (by decide) (by decide) (by decide) (by decide) (by decide) (by decide) (by decide) (by decide) (by decide) _ (tile49_eq _ _ _ _ _ _)
    · exact piece_ok x0 x1 768 512 (by omega) (by omega) (by omega) (by decide) (by decide) (by decide) (by decide) (by decide) (by decide) (by decide) (by decide) (by decide) (by decide) _ (tile47_eq _ _ _ _ _ _)
    · exact piece_ok x0 x1 512 512 (by omega) (by omega) (by omega) (by decide) (by decide) (by decide) (by decide) (by decide) (by decide) (by decide) (by decide) (by decide) (by decide) _ (tile44_eq _ _ _ _ _ _)
    · exact piece_ok x0 x1 256 512 (by omega) (by omega) (by omega) (by decide) (by decide) (by decide) (by decide) (by decide) (by decide) (by decide) (by decide) (by decide) (by decide) _ (tile42_eq _ _ _ _ _ _)
    · exact piece_ok x0 x1 0 512 (by omega) (by omega) (by omega) (by decide) (by decide) (by decide) (by decide) (by decide) (by decide) (by decide) (by decide) (by decide) (by decide) _ (tile40_eq _ _ _ _ _ _)
    · exact piece_ok x0 x1 768 384 (by omega) (by omega) (by omega) (by decide) (by decide) (by decide) (by decide) (by decide) (by decide) (by decide) (by decide) (by decide) (by decide) _ (tile38_eq _ _ _ _ _ _)
    · exact piece_ok x0 x1 512 384 (by omega) (by omega) (by omega) (by decide) (by decide) (by decide) (by decide) (by decide) (by decide) (by decide) (by decide) (by decide) (by decide) _ (tile34_eq _ _ _ _ _ _)
    · exact piece_ok x0 x1 256 384 (by omega) (by omega) (by omega) (by decide) (by decide) (by decide) (by decide) (by decide) (by decide) (by decide) (by decide) (by decide) (by decide) _ (tile30_eq _ _ _ _ _ _)
    · exact piece_ok x0 x1 0 384 (by omega) (by omega) (by omega) (by decide) (by decide) (by decide) (by decide) (by decide) (by decide) (by decide) (by decide) (by decide) (by decide) _ (tile27_eq _ _ _ _ _ _)
    · exact piece_ok x0 x1 768 256 (by omega) (by omega) (by omega) (by decide) (by decide) (by decide) (by decide) (by decide) (by decide) (by decide) (by decide) (by decide) (by decide) _ (tile23_eq _ _ _ _ _ _)
    · exact piece_ok x0 x1 512 256 (by omega) (by omega) (by omega) (by decide) (by decide) (by decide) (by decide) (by decide) (by decide) (by decide) (by decide) (by decide) (by decide) _ (tile20_eq _ _ _ _ _ _)
    · exact piece_ok x0 x1 256 256 (by omega) (by omega) (by omega) (by decide) (by decide) (by decide) (by decide) (by decide) (by decide) (by decide) (by decide) (by decide) (by decide) _ (tile17_eq _ _ _ _ _ _)
    · exact piece_ok x0 x1 0 256 (by omega) (by omega) (by omega) (by decide) (by decide) (by decide) (by decide) (by decide) (by decide) (by decide) (by decide) (by decide) (by decide) _ (tile15_eq _ _ _ _ _ _)
    · exact piece_ok x0 x1 768 128 (by omega) (by omega) (by omega) (by decide) (by decide) (by decide) (by decide) (by decide) (by decide) (by decide) (by decide) (by decide) (by decide) _ (tile13_eq _ _ _ _ _ _)
    · exact piece_ok x0 x1 512 128 (by omega) (by omega) (by omega) (by decide) (by decide) (by decide) (by decide) (by decide) (by decide) (by decide) (by decide) (by decide) (by decide) _ (tile11_eq _ _ _ _ _ _)
    · exact piece_ok x0 x1 256 128 (by omega) (by omega) (by omega) (by decide) (by decide) (by decide) (by decide) (by decide) (by decide) (by decide) (by decide) (by decide) (by decide) _ (tile10_eq _ _ _ _ _ _)
    · exact piece_ok x0 x1 0 128 (by omega) (by omega) (by omega) (by decide) (by decide) (by decide) (by decide) (by decide) (by decide) (by decide) (by decide) (by decide) (by decide) _ (tile9_eq _ _ _ _ _ _)
    · exact piece_ok x0 x1 768 0 (by omega) (by omega) (by omega) (by decide) (by decide) (by decide) (by decide) (by decide) (by decide) (by decide) (by decide) (by decide) (by decide) _ (tile8_eq _ _ _ _ _ _)
    · exact piece_ok x0 x1 512 0 (by omega) (by omega) (by omega) (by decide) (by decide) (by decide) (by decide) (by decide) (by decide) (by decide) (by decide) (by decide) (by decide) _ (tile7_eq _ _ _ _ _ _)
    · exact piece_ok x0 x1 256 0 (by omega) (by omega) (by omega) (by decide) (by decide) (by decide) (by decide) (by decide) (by decide) (by decide) (by decide) (by decide) (by decide) _ (tile6_eq _ _ _ _ _ _)
    · exact piece_ok x0 x1 0 0 (by omega) (by omega) (by omega) (by decide) (by decide) (by decide) (by decide) (by decide) (by decide) (by decide) (by decide) (by decide) (by decide) _ rfl
    · exact fun _ h => absurd h List.not_mem_nil
  · unfold ctxArr
    show ctx (Xf x0) (Wf x1) ⟨0 + n.val, _⟩ ⟨0 + c'.val, _⟩ = ctx (Xf x0) (Wf x1) n c'
    congr 1 <;> exact Fin.ext (Nat.zero_add _)

end Cert.KernelIdeal.Block

end
-- ==== Proof.AttnFull.lean ====
/-
  Self-attention of a batch of 8 sequences: `AttnSpec.out` of each sequence, over arrays of literal shapes.
-/
import proofs.«139985_j76527727280452_2_alg».proof.Proof.AttnSpec

noncomputable section

namespace Cert.AttnSpec

open Idealize.ShloMosaic Idealize.ShloMosaic.ValueIdx

/-- Sequence `b` of the batch as rows by features. -/
def seqOf (a0 : (⟨3, ![8, 1024, 768]⟩ : Shape).Idx → EReal) (b : Fin 8) : Fin 1024 → Fin 768 → EReal := fun n k => a0 (ix3 b n k)
/-- A two-axis array as rows by columns. -/
def mat {r c : ℕ} (a : (⟨2, ![r, c]⟩ : Shape).Idx → EReal) : Fin r → Fin c → EReal := fun e k => a (ix2 e k)
/-- A one-axis array as a function of its coordinate. -/
def vec1 {r : ℕ} (a : (⟨1, ![r]⟩ : Shape).Idx → EReal) : Fin r → EReal := fun e => a (ix1 e)

/-- The whole result [8,1024,768]: entry (b, n, e) is entry (n, e) of the self-attention of sequence `b`. -/
def full (a0 : (⟨3, ![8, 1024, 768]⟩ : Shape).Idx → EReal) (a1 : (⟨2, ![2304, 768]⟩ : Shape).Idx → EReal)
    (a2 : (⟨2, ![768, 768]⟩ : Shape).Idx → EReal) (a3 : (⟨1, ![768]⟩ : Shape).Idx → EReal) :
    (⟨3, ![8, 1024, 768]⟩ : Shape).Idx → EReal :=
  fun i => out (seqOf a0 ⟨(i 0).val, (i 0).isLt⟩) (mat a1) (mat a2) (vec1 a3) ⟨(i 1).val, (i 1).isLt⟩ ⟨(i 2).val, (i 2).isLt⟩

theorem out_congr {X X' : Fin 1024 → Fin 768 → EReal} {W W' : Fin 2304 → Fin 768 → EReal} {Wf Wf' : Fin 768 → Fin 768 → EReal}
    {b b' : Fin 768 → EReal} (hX : ∀ n k, X n k = X' n k) (hW : ∀ e k, W e k = W' e k) (hWf : ∀ e c, Wf e c = Wf' e c)
    (hb : ∀ e, b e = b' e) (n : Fin 1024) (e : Fin 768) : out X W Wf b n e = out X' W' Wf' b' n e := by
  have e1 : X = X' := funext fun n => funext (hX n)
  have e2 : W = W' := funext fun n => funext (hW n)
  have e3 : Wf = Wf' := funext fun n => funext (hWf n)
  have e4 : b = b' := funext hb
  rw [e1, e2, e3, e4]

end Cert.AttnSpec

end
-- ==== Proof.Whole.lean ====
/-
  From blocks to the array. The kernel runs the body once per sequence of the batch: at grid point `t` the body
  reads sequence `t` (block (t, 0, 0) of the [8,1024,768] input, 1024 rows by 768 features) and the three whole
  parameter arrays, and its output block is written back as block (t, 0, 0) of the result. Before the call the
  host only changes the float format of the three arrays (the identity on the extended reals) and views the bias
  [768] as one row [1,768]. The eight blocks fill the result, so the result array is `AttnSpec.full` of the
  arguments.
-/
import proofs.«139985_j76527727280452_2_alg».proof.Proof.Gen.KernelIdeal.Value
import proofs.«139985_j76527727280452_2_alg».proof.Proof.Block
import proofs.«139985_j76527727280452_2_alg».proof.Proof.AttnFull
import Idealize.ShloMosaic.Lib.StableHlo.Run

set_option maxRecDepth 16384

noncomputable section

open scoped BigOperators

namespace Cert.KernelIdeal.Whole

open Cert.KernelIdeal Cert.KernelIdeal.Gen Cert.KernelIdeal.Value Cert.KernelIdeal.Block Cert.AttnSpec
open Idealize.ShloMosaic Idealize.ShloMosaic.ValueIdx Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The block indices of the five windows at grid point `t`: the sequence and the result move with `t` along the
    batch axis, the parameters are read whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The arrays the call finds -/

theorem V_v0 (c : Dev nD) : (V m c main_v0 : S8x1024x768.Idx → EReal) = (m ((c : Thread nD τ).loc main_arg0) : S8x1024x768.Idx → EReal) := by
  dsimp only [Gen.V, Gen.hostOps0]; after_results; rfl
theorem V_v1 (c : Dev nD) : (V m c main_v1 : S2304x768.Idx → EReal) = (m ((c : Thread nD τ).loc main_arg1) : S2304x768.Idx → EReal) := by
  dsimp only [Gen.V, Gen.hostOps0]; after_results; rfl
theorem V_v2 (c : Dev nD) : (V m c main_v2 : S768x768.Idx → EReal) = (m ((c : Thread nD τ).loc main_arg2) : S768x768.Idx → EReal) := by
  dsimp only [Gen.V, Gen.hostOps0]; after_results; rfl
theorem V_v3 (c : Dev nD) : (V m c main_v3 : S1x768.Idx → EReal) = shapeCast S1x768 (m ((c : Thread nD τ).loc main_arg3) : S768.Idx → EReal) shapeCasts_S768_S1x768 := by
  dsimp only [Gen.V, Gen.hostOps0]; after_results; rfl

/-! ## The input blocks at a grid point -/

theorem lt8 (t : Fin cfg0.N) : t.val < 8 := by have h : cfg0.N = 8 := N_0; have := t.isLt; omega

/-- The sequence block at point `t` is sequence `t` of the batch. -/
theorem iblk0_apply (c : Dev nD) (t : Fin cfg0.N) (n : Fin 1024) (k : Fin 768) :
    (iblk m c 0 t : Vec Ideal S1x1024x768 .bf16) (ix3 (0 : Fin 1) n k)
      = (m ((c : Thread nD τ).loc main_arg0) : S8x1024x768.Idx → EReal) (ix3 (⟨t.val, lt8 t⟩ : Fin 8) n k) := by
  obtain ⟨h0, h1, h2, -⟩ := idx_facts t
  unfold iblk
  rw [View.read_apply]
  show V m c main_v0 _ = _
  refine (congrFun (V_v0 m c) _).trans ?_
  congr 1
  funext a
  apply Fin.ext
  match a with
  | ⟨0, _⟩ => show win0_0.index t 0 * 1 + 1 * 0 = t.val; rw [h0]; omega
  | ⟨1, _⟩ => show win0_0.index t 1 * 1024 + 1 * n.val = n.val; rw [h1]; omega
  | ⟨2, _⟩ => show win0_0.index t 2 * 768 + 1 * k.val = k.val; rw [h2]; omega

/-- The joint projection weight, whole. -/
theorem iblk1_apply (c : Dev nD) (t : Fin cfg0.N) (e : Fin 2304) (k : Fin 768) :
    (iblk m c 1 t : Vec Ideal S2304x768 .bf16) (ix2 e k) = (m ((c : Thread nD τ).loc main_arg1) : S2304x768.Idx → EReal) (ix2 e k) := by
  obtain ⟨-, -, -, h0, h1, -⟩ := idx_facts t
  unfold iblk
  rw [View.read_apply]
  show V m c main_v1 _ = _
  refine (congrFun (V_v1 m c) _).trans ?_
  congr 1
  funext a
  apply Fin.ext
  match a with
  | ⟨0, _⟩ => show win0_1.index t 0 * 2304 + 1 * e.val = e.val; rw [h0]; omega
  | ⟨1, _⟩ => show win0_1.index t 1 * 768 + 1 * k.val = k.val; rw [h1]; omega

/-- The output projection weight, whole. -/
theorem iblk2_apply (c : Dev nD) (t : Fin cfg0.N) (e : Fin 768) (k : Fin 768) :
    (iblk m c 2 t : Vec Ideal S768x768 .bf16) (ix2 e k) = (m ((c : Thread nD τ).loc main_arg2) : S768x768.Idx → EReal) (ix2 e k) := by
  obtain ⟨-, -, -, -, -, h0, h1, -⟩ := idx_facts t
  unfold iblk
  rw [View.read_apply]
  show V m c main_v2 _ = _
  refine (congrFun (V_v2 m c) _).trans ?_
  congr 1
  funext a
  apply Fin.ext
  match a with
  | ⟨0, _⟩ => show win0_2.index t 0 * 768 + 1 * e.val = e.val; rw [h0]; omega
  | ⟨1, _⟩ => show win0_2.index t 1 * 768 + 1 * k.val = k.val; rw [h1]; omega

/-- The bias, as its one row. -/
theorem iblk3_apply (c : Dev nD) (t : Fin cfg0.N) (e : Fin 768) :
    (iblk m c 3 t : Vec Ideal S1x768 .f32) (ix2 (0 : Fin 1) e) = (m ((c : Thread nD τ).loc main_arg3) : S768.Idx → EReal) (ix1 e) := by
  obtain ⟨-, -, -, -, -, -, -, h0, h1, -⟩ := idx_facts t
  unfold iblk
  rw [View.read_apply]
  show V m c main_v3 _ = _
  refine (congrFun (V_v3 m c) _).trans ?_
  refine shapeCast_apply _ shapeCasts_S768_S1x768 _ (ix1 e) ?_
  rw [Shape.rowMajor_val_one, Shape.rowMajor_val_two]
  show e.val = (win0_3.index t 0 * 1 + 1 * 0) * 768 + (win0_3.index t 1 * 768 + 1 * e.val)
  rw [h0, h1]; omega

/-! ## What a point writes back, the cover, the array -/

/-- The arguments as the kernel is launched with them. -/
abbrev result (c : Dev nD) : S8x1024x768.Idx → EReal :=
  full (m ((c : Thread nD τ).loc main_arg0)) (m ((c : Thread nD τ).loc main_arg1)) (m ((c : Thread nD τ).loc main_arg2)) (m ((c : Thread nD τ).loc main_arg3))

theorem flushed_eq (c : Dev nD) (t : Fin cfg0.N) :
    (dats m 0 c).flushed 4 t = ((cfg0.win 4).blk t).view.read (Elt Ideal) (result m c) := by
  rw [flushed4_A, Block.block_eq]
  obtain ⟨-, -, -, -, -, -, -, -, -, h0, h1, h2⟩ := idx_facts t
  funext j
  rw [View.read_apply]
  obtain ⟨z, n, e, rfl⟩ : ∃ (z : Fin 1) (n : Fin 1024) (e : Fin 768), j = ix3 z n e := ⟨j 0, j 1, j 2, eq_ix3 j⟩
  show out (Xf (iblk m c 0 t)) (Wf (iblk m c 1 t)) (Of (iblk m c 2 t)) (Bf (iblk m c 3 t)) n e = result m c _
  unfold result full
  have hz : z.val = 0 := by omega
  have hb : (⟨((((cfg0.win 4).blk t).view.emb (ix3 z n e)) 0).val, ((((cfg0.win 4).blk t).view.emb (ix3 z n e)) 0).isLt⟩ : Fin 8) = ⟨t.val, lt8 t⟩ :=
    Fin.ext (by show win0_4.index t 0 * 1 + 1 * z.val = t.val; rw [h0, hz]; omega)
  have hn : (⟨((((cfg0.win 4).blk t).view.emb (ix3 z n e)) 1).val, ((((cfg0.win 4).blk t).view.emb (ix3 z n e)) 1).isLt⟩ : Fin 1024) = n :=
    Fin.ext (by show win0_4.index t 1 * 1024 + 1 * n.val = n.val; rw [h1]; omega)
  have he : (⟨((((cfg0.win 4).blk t).view.emb (ix3 z n e)) 2).val, ((((cfg0.win 4).blk t).view.emb (ix3 z n e)) 2).isLt⟩ : Fin 768) = e :=
    Fin.ext (by show win0_4.index t 2 * 768 + 1 * e.val = e.val; rw [h2]; omega)
  rw [hb, hn, he]
  exact out_congr (fun n' k => iblk0_apply m c t n' k) (fun e' k => iblk1_apply m c t e' k) (fun e' k => iblk2_apply m c t e' k)
    (fun e' => iblk3_apply m c t e') n e

/-- An index of the result is in point `t`'s block iff each coordinate is in the block's range on its axis. -/
theorem mem_blk (t : Fin cfg0.N) (i : S8x1024x768.Idx) :
    i ∈ ((cfg0.win 4).blk t).view.set ↔ ∀ a : Fin 3, win0_4.index t a * S1x1024x768.size a ≤ (i a).val ∧ (i a).val < win0_4.index t a * S1x1024x768.size a + S1x1024x768.size a := by
  show i ∈ ((View.whole main_v4).slice (win0_4.rect t)).set ↔ _
  rw [View.set_slice_whole, Rect.mem_set_unit]
  exact Iff.rfl

/-- Every index of the result is in the block of the point its batch coordinate names. -/
theorem covered (i : S8x1024x768.Idx) : ∃ t : Fin cfg0.N, (cfg0.win 4).flush t = true ∧ i ∈ ((cfg0.win 4).blk t).view.set := by
  have hN : cfg0.N = 8 := N_0
  have hi0 : (i 0).val < 8 := (i 0).isLt
  have hi1 : (i 1).val < 1024 := (i 1).isLt
  have hi2 : (i 2).val < 768 := (i 2).isLt
  refine ⟨⟨(i 0).val, by omega⟩, flush0_4 _, ?_⟩
  obtain ⟨-, -, -, -, -, -, -, -, -, h0, h1, h2⟩ := idx_facts ⟨(i 0).val, by omega⟩
  have h0' : win0_4.index (⟨(i 0).val, by omega⟩ : Fin cfg0.N) 0 = (i 0).val := h0
  rw [mem_blk]
  intro a
  match a with
  | ⟨0, _⟩ => show win0_4.index _ 0 * 1 ≤ (i 0).val ∧ (i 0).val < win0_4.index _ 0 * 1 + 1; rw [h0']; omega
  | ⟨1, _⟩ => show win0_4.index _ 1 * 1024 ≤ (i 1).val ∧ (i 1).val < win0_4.index _ 1 * 1024 + 1024; rw [h1]; omega
  | ⟨2, _⟩ => show win0_4.index _ 2 * 768 ≤ (i 2).val ∧ (i 2).val < win0_4.index _ 2 * 768 + 768; rw [h2]; omega

/-- The result array after the run. -/
theorem final (c : Dev nD) : (dats m 0 c).arrAt 4 cfg0.N = result m c :=
  (dats m 0 c).arrAt_eq_of_cover 4 (result m c) (fun t _ => flushed_eq m c t) covered

/-- The kernel's run: the result at `AttnSpec.full` of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefIsSpec.lean ====
/-
  The reference program's result, stage by stage at an index, is self-attention of each sequence of the batch:
  the joint projection, its three slices split into 12 heads of 64 features (a reshape of the feature axis and a
  swap of the row and head axes), the scores, their row maxima, the exponentials and their row sums, the
  weights, the heads' outputs, the heads put back side by side, the output projection and the bias.
-/
import proofs.«139985_j76527727280452_2_alg».proof.Proof.Gen.ReferenceIdeal.Read
import proofs.«139985_j76527727280452_2_alg».proof.Proof.AttnFull

set_option maxRecDepth 16384

noncomputable section

open scoped BigOperators

namespace Cert.ReferenceIdeal.RefSpec

open Cert.ReferenceIdeal Cert.ReferenceIdeal.Gen Cert.ReferenceIdeal.Read Idealize.ShloMosaic Idealize.ShloMosaic.ValueIdx Cert.AttnSpec

variable (x0 : (⟨S8x1024x768, .f32⟩ : BufTy).Contents (Elt Ideal)) (x1 : (⟨S2304x768, .f32⟩ : BufTy).Contents (Elt Ideal))

/-- The joint projection at (b, n, e). -/
theorem v0_at (b : Fin 8) (n : Fin 1024) (e : Fin 2304) :
    val_main_v0 (F := Ideal) x0 x1 (ix3 b n e) = proj (seqOf x0 b) (mat x1) n e := by
  rw [val_main_v0_apply]
  unfold proj seqOf mat
  refine Finset.sum_congr rfl fun k _ => ?_
  have e1 : lidx_main_v0 (ix3 b n e) k = ix3 b n k := funext fun a => Fin.ext (by
    match a with
    | ⟨0, _⟩ => rfl
    | ⟨1, _⟩ => rfl
    | ⟨2, _⟩ => rfl)
  have e2 : ridx_main_v0 (ix3 b n e) k = ix2 e k := funext fun a => Fin.ext (by
    match a with
    | ⟨0, _⟩ => rfl
    | ⟨1, _⟩ => rfl)
  rw [e1, e2]

/-- The queries, by head: feature `d` of head `h` is column `64 h + d` of the first slice. -/
theorem q_at (b : Fin 8) (h : Fin 12) (n : Fin 1024) (d : Fin 64) :
    val_main_v5 (F := Ideal) x0 x1 (ix4 b h n d)
      = proj (seqOf x0 b) (mat x1) n ⟨64 * h.val + d.val, by have := h.isLt; have := d.isLt; omega⟩ := by
  have hb := b.isLt; have hh := h.isLt; have hn := n.isLt; have hd := d.isLt
  rw [val_main_v5_apply, val_main_v4_apply, val_main_v1_apply]
  have e1 : idx_main_v1 (idx_main_v4 (idx_main_v5 (ix4 b h n d))) = ix3 b n (⟨64 * h.val + d.val, by omega⟩ : Fin 2304) :=
    funext fun a => Fin.ext (by
      match a with
      | ⟨0, _⟩ => show (((b.val * 1024 + n.val) * 12 + h.val) * 64 + d.val) / 786432 = b.val; omega
      | ⟨1, _⟩ => show (((b.val * 1024 + n.val) * 12 + h.val) * 64 + d.val) / 768 % 1024 = n.val; omega
      | ⟨2, _⟩ => show (((b.val * 1024 + n.val) * 12 + h.val) * 64 + d.val) % 768 = 64 * h.val + d.val; omega)
  rw [e1]
  exact v0_at x0 x1 b n _

/-- The keys, by head, from the second slice. -/
theorem k_at (b : Fin 8) (h : Fin 12) (n : Fin 1024) (d : Fin 64) :
    val_main_v7 (F := Ideal) x0 x1 (ix4 b h n d)
      = proj (seqOf x0 b) (mat x1) n ⟨768 + (64 * h.val + d.val), by have := h.isLt; have := d.isLt; omega⟩ := by
  have hb := b.isLt; have hh := h.isLt; have hn := n.isLt; have hd := d.isLt
  rw [val_main_v7_apply, val_main_v6_apply, val_main_v2_apply]
  have e1 : idx_main_v2 (idx_main_v6 (idx_main_v7 (ix4 b h n d))) = ix3 b n (⟨768 + (64 * h.val + d.val), by omega⟩ : Fin 2304) :=
    funext fun a => Fin.ext (by
      match a with
      | ⟨0, _⟩ => show (((b.val * 1024 + n.val) * 12 + h.val) * 64 + d.val) / 786432 = b.val; omega
      | ⟨1, _⟩ => show (((b.val * 1024 + n.val) * 12 + h.val) * 64 + d.val) / 768 % 1024 = n.val; omega
      | ⟨2, _⟩ => show 768 + (((b.val * 1024 + n.val) * 12 + h.val) * 64 + d.val) % 768 = 768 + (64 * h.val + d.val); omega)
  rw [e1]
  exact v0_at x0 x1 b n _

/-- The values, by head, from the third slice. -/
theorem v_at (b : Fin 8) (h : Fin 12) (n : Fin 1024) (d : Fin 64) :
    val_main_v9 (F := Ideal) x0 x1 (ix4 b h n d)
      = proj (seqOf x0 b) (mat x1) n ⟨1536 + (64 * h.val + d.val), by have := h.isLt; have := d.isLt; omega⟩ := by
  have hb := b.isLt; have hh := h.isLt; have hn := n.isLt; have hd := d.isLt
  rw [val_main_v9_apply, val_main_v8_apply, val_main_v3_apply]
  have e1 : idx_main_v3 (idx_main_v8 (idx_main_v9 (ix4 b h n d))) = ix3 b n (⟨1536 + (64 * h.val + d.val), by omega⟩ : Fin 2304) :=
    funext fun a => Fin.ext (by
      match a with
      | ⟨0, _⟩ => show (((b.val * 1024 + n.val) * 12 + h.val) * 64 + d.val) / 786432 = b.val; omega
      | ⟨1, _⟩ => show (((b.val * 1024 + n.val) * 12 + h.val) * 64 + d.val) / 768 % 1024 = n.val; omega
      | ⟨2, _⟩ => show 1536 + (((b.val * 1024 + n.val) * 12 + h.val) * 64 + d.val) % 768 = 1536 + (64 * h.val + d.val); omega)
  rw [e1]
  exact v0_at x0 x1 b n _

/-- Head `h`'s query, key and value features of sequence `b`. -/
def qh (b : Fin 8) (h : Fin 12) (n : Fin 1024) (d : Fin 64) : EReal := val_main_v5 (F := Ideal) x0 x1 (ix4 b h n d)
def kh (b : Fin 8) (h : Fin 12) (j : Fin 1024) (d : Fin 64) : EReal := val_main_v7 (F := Ideal) x0 x1 (ix4 b h j d)
def vh (b : Fin 8) (h : Fin 12) (j : Fin 1024) (d : Fin 64) : EReal := val_main_v9 (F := Ideal) x0 x1 (ix4 b h j d)

/-- The scores. -/
theorem s_at (b : Fin 8) (h : Fin 12) (n j : Fin 1024) :
    val_main_v10 (F := Ideal) x0 x1 (ix4 b h n j) = score (qh x0 x1 b h n) (kh x0 x1 b h) j := by
  rw [val_main_v10_apply]
  unfold score qh kh
  refine Finset.sum_congr rfl fun d _ => ?_
  have e1 : lidx_main_v10 (ix4 b h n j) d = ix4 b h n d := funext fun a => Fin.ext (by
    match a with
    | ⟨0, _⟩ => rfl
    | ⟨1, _⟩ => rfl
    | ⟨2, _⟩ => rfl
    | ⟨3, _⟩ => rfl)
  have e2 : ridx_main_v10 (ix4 b h n j) d = ix4 b h j d := funext fun a => Fin.ext (by
    match a with
    | ⟨0, _⟩ => rfl
    | ⟨1, _⟩ => rfl
    | ⟨2, _⟩ => rfl
    | ⟨3, _⟩ => rfl)
  rw [e1, e2]

theorem lift_key (hr : S8x12x1024x1024.Reduces [3] S8x12x1024) (b : Fin 8) (h : Fin 12) (n : Fin 1024) (k : Fin (S8x12x1024x1024.size 3)) :
    hr.lift (ix3 b h n) k = ix4 b h n (⟨k.val, k.isLt⟩ : Fin 1024) := by
  funext c; apply Fin.ext
  fin_cases c <;> rfl

/-- The row maximum (the reference takes the larger of minus infinity and the fold from minus infinity). -/
theorem m_at (b : Fin 8) (h : Fin 12) (n : Fin 1024) :
    val_main_v13 (F := Ideal) x0 x1 (ix3 b h n) = rowMax (score (qh x0 x1 b h n) (kh x0 x1 b h)) := by
  have hr : S8x12x1024x1024.Reduces [3] S8x12x1024 := by decide
  rw [val_main_v13_apply, val_main_v12_apply, val_main_cst_0_apply]
  unfold val_main_v11
  rw [Host.reduce_eq_fold_single FloatOps.maximumf _ _ reducesTo_S8x12x1024x1024_S8x12x1024_d3 hr h_S_]
  have hf : (val_main_v10 (F := Ideal) x0 x1 ∘ hr.lift (ix3 b h n)) = score (qh x0 x1 b h n) (kh x0 x1 b h) :=
    funext fun k => (congrArg (val_main_v10 (F := Ideal) x0 x1) (lift_key hr b h n k)).trans (s_at x0 x1 b h n _)
  rw [hf]
  show max negInf (Finset.fold max negInf (score (qh x0 x1 b h n) (kh x0 x1 b h)) Finset.univ) = rowMax _
  unfold rowMax
  exact max_eq_right ((Finset.le_fold_max negInf).2 (Or.inl le_rfl))

/-- The exponential of a score less its row's maximum. -/
theorem p_at (b : Fin 8) (h : Fin 12) (n j : Fin 1024) :
    val_main_v17 (F := Ideal) x0 x1 (ix4 b h n j)
      = Ideal.exp (score (qh x0 x1 b h n) (kh x0 x1 b h) j - rowMax (score (qh x0 x1 b h n) (kh x0 x1 b h))) := by
  rw [val_main_v17_apply, val_main_v16_apply, val_main_v15_apply, val_main_v14_apply, s_at]
  have e1 : idx_main_v14 (idx_main_v15 (ix4 b h n j)) = ix3 b h n := funext fun a => Fin.ext (by
    match a with
    | ⟨0, _⟩ => rfl
    | ⟨1, _⟩ => rfl
    | ⟨2, _⟩ => rfl)
  rw [e1, m_at]
  rfl

/-- The softmax weight. -/
theorem a_at (b : Fin 8) (h : Fin 12) (n j : Fin 1024) :
    val_main_v21 (F := Ideal) x0 x1 (ix4 b h n j) = weight (score (qh x0 x1 b h n) (kh x0 x1 b h)) j := by
  rw [val_main_v21_apply, val_main_v20_apply, val_main_v19_apply, p_at]
  have e1 : idx_main_v19 (idx_main_v20 (ix4 b h n j)) = ix3 b h n := funext fun a => Fin.ext (by
    match a with
    | ⟨0, _⟩ => rfl
    | ⟨1, _⟩ => rfl
    | ⟨2, _⟩ => rfl)
  rw [e1, val_main_v18_apply, val_main_cst_1_apply]
  unfold weight
  show Ideal.div _ (Ideal.ofBits .f32 0x00000000#32 + _) = _
  rw [Ideal.ofBits_zero_f32, zero_add]
  refine congrArg (Ideal.div _) (Finset.sum_congr rfl fun k _ => ?_)
  have e2 : idx_main_v18 (ix3 b h n) k = ix4 b h n k := funext fun a => Fin.ext (by
    match a with
    | ⟨0, _⟩ => rfl
    | ⟨1, _⟩ => rfl
    | ⟨2, _⟩ => rfl
    | ⟨3, _⟩ => rfl)
  rw [e2, p_at]

/-- One head's output. -/
theorem o_at (b : Fin 8) (h : Fin 12) (n : Fin 1024) (d : Fin 64) :
    val_main_v22 (F := Ideal) x0 x1 (ix4 b h n d) = head (qh x0 x1 b h n) (kh x0 x1 b h) (vh x0 x1 b h) d := by
  rw [val_main_v22_apply]
  unfold head
  refine Finset.sum_congr rfl fun j _ => ?_
  have e1 : lidx_main_v22 (ix4 b h n d) j = ix4 b h n j := funext fun a => Fin.ext (by
    match a with
    | ⟨0, _⟩ => rfl
    | ⟨1, _⟩ => rfl
    | ⟨2, _⟩ => rfl
    | ⟨3, _⟩ => rfl)
  have e2 : ridx_main_v22 (ix4 b h n d) j = ix4 b h j d := funext fun a => Fin.ext (by
    match a with
    | ⟨0, _⟩ => rfl
    | ⟨1, _⟩ => rfl
    | ⟨2, _⟩ => rfl
    | ⟨3, _⟩ => rfl)
  rw [e1, e2, a_at]
  rfl

/-- The heads side by side: column `c` of row `n`. -/
theorem ctx_at (b : Fin 8) (n : Fin 1024) (c : Fin 768) :
    val_main_v24 (F := Ideal) x0 x1 (ix3 b n c) = ctx (seqOf x0 b) (mat x1) n c := by
  have hb := b.isLt; have hn := n.isLt; have hc := c.isLt
  rw [val_main_v24_apply, val_main_v23_apply]
  have e1 : idx_main_v23 (idx_main_v24 (ix3 b n c)) = ix4 b (⟨c.val / 64, by omega⟩ : Fin 12) n (⟨c.val % 64, Nat.mod_lt _ (by decide)⟩ : Fin 64) :=
    funext fun a => Fin.ext (by
      match a with
      | ⟨0, _⟩ => show ((b.val * 1024 + n.val) * 768 + c.val) / 786432 = b.val; omega
      | ⟨1, _⟩ => show ((b.val * 1024 + n.val) * 768 + c.val) / 64 % 12 = c.val / 64; omega
      | ⟨2, _⟩ => show ((b.val * 1024 + n.val) * 768 + c.val) / 768 % 1024 = n.val; omega
      | ⟨3, _⟩ => show ((b.val * 1024 + n.val) * 768 + c.val) % 64 = c.val % 64; omega)
  rw [e1, o_at]
  unfold ctx
  refine head_congr (fun d => ?_) (fun j d => ?_) (fun j d => ?_) _
  · have hd := d.isLt
    unfold qh qf
    rw [q_at]
    exact proj_congr _ _ rfl (by show 64 * (c.val / 64) + d.val = c.val / 64 * 64 + d.val; omega)
  · have hd := d.isLt
    unfold kh kf
    rw [k_at]
    exact proj_congr _ _ rfl (by show 768 + (64 * (c.val / 64) + d.val) = 768 + (c.val / 64 * 64 + d.val); omega)
  · have hd := d.isLt
    unfold vh vf
    rw [v_at]
    exact proj_congr _ _ rfl (by show 1536 + (64 * (c.val / 64) + d.val) = 1536 + (c.val / 64 * 64 + d.val); omega)

/-- The reference's result is self-attention of each sequence. -/
theorem ref_eq (x2 : (⟨S768x768, .f32⟩ : BufTy).Contents (Elt Ideal)) (x3 : (⟨S768, .f32⟩ : BufTy).Contents (Elt Ideal)) :
    val_main_v28 (F := Ideal) x0 x1 x2 x3 = full x0 x1 x2 x3 := by
  funext i
  obtain ⟨b, n, e, rfl⟩ : ∃ (b : Fin 8) (n : Fin 1024) (e : Fin 768), i = ix3 b n e := ⟨i 0, i 1, i 2, eq_ix3 i⟩
  rw [val_main_v28_apply, val_main_v25_apply, val_main_v27_apply, val_main_v26_apply]
  unfold full out
  refine congrArg₂ (· + ·) ?_ ?_
  · refine Finset.sum_congr rfl fun c _ => ?_
    have e1 : lidx_main_v25 (ix3 b n e) c = ix3 b n c := funext fun a => Fin.ext (by
      match a with
      | ⟨0, _⟩ => rfl
      | ⟨1, _⟩ => rfl
      | ⟨2, _⟩ => rfl)
    have e2 : ridx_main_v25 (ix3 b n e) c = ix2 e c := funext fun a => Fin.ext (by
      match a with
      | ⟨0, _⟩ => rfl
      | ⟨1, _⟩ => rfl)
    rw [e1, ctx_at, e2]
    rfl
  · show x3 _ = x3 (ix1 _)
    exact congrArg x3 (funext fun a => Fin.ext (by
      match a with
      | ⟨0, _⟩ => rfl))

end Cert.ReferenceIdeal.RefSpec

end
-- ==== Proof.lean ====
/-
  The certificate: a tiled kernel for multi-head self-attention (8 sequences of 1024 rows by 768 features, 12
  heads of 64 features; one grid point per sequence) against its whole-array reference, on the extended reals.

  Both programs compute, for each sequence, the same function `AttnSpec.out` (Proof/AttnSpec.lean): the joint
  projection `x Wᵀ` split into queries, keys and values; per head the scores `q kᵀ`, the softmax weights
  `exp (s - max s) / Σ exp (s - max s)` along the keys, and the weighted sum of the values; the heads side by side;
  the output projection plus the bias. The kernel arranges this as three whole projections kept in scratch arrays,
  24 tiles (a pair of heads by 256 query rows each) written into a fourth scratch array, and one final product
  (Proof/HeadLaw.lean, TileLaw.lean, ProjLaw.lean, Block.lean: the body's output block; Proof/Whole.lean: the eight
  blocks are the result array). The reference arranges it as whole-batch array operations with a reshape and a
  transpose to separate the heads (Proof/RefIsSpec.lean). Every sum on either side runs over the same index set
  with the same terms, and the maxima, exponentials and quotients are the same operations on the same operands,
  so the two results agree entry by entry for all inputs; no law that needs finite entries is used. The changes
  of float format the kernel makes are the identity on the extended reals, and the idealization rewrote nothing,
  so its fourth claim is trivial. The three frames are the generated ones.
-/
import proofs.«139985_j76527727280452_2_alg».proof.Defs
import proofs.«139985_j76527727280452_2_alg».proof.Proof.Gen.Kernel
import proofs.«139985_j76527727280452_2_alg».proof.Proof.Gen.Kernel.Skeleton
import proofs.«139985_j76527727280452_2_alg».proof.Proof.Gen.Kernel.Launch
import proofs.«139985_j76527727280452_2_alg».proof.Proof.Gen.Kernel.Points
import proofs.«139985_j76527727280452_2_alg».proof.Proof.Gen.Kernel.Frame
import proofs.«139985_j76527727280452_2_alg».proof.Proof.Gen.KernelIdeal
import proofs.«139985_j76527727280452_2_alg».proof.Proof.Gen.KernelIdeal.Skeleton
import proofs.«139985_j76527727280452_2_alg».proof.Proof.Gen.KernelIdeal.Launch
import proofs.«139985_j76527727280452_2_alg».proof.Proof.Gen.KernelIdeal.Points
import proofs.«139985_j76527727280452_2_alg».proof.Proof.Gen.KernelIdeal.Frame
import proofs.«139985_j76527727280452_2_alg».proof.Proof.Gen.ReferenceIdeal
import proofs.«139985_j76527727280452_2_alg».proof.Proof.Gen.KernelIdeal.Value
import proofs.«139985_j76527727280452_2_alg».proof.Proof.Gen.ReferenceIdeal.Run
import proofs.«139985_j76527727280452_2_alg».proof.Proof.Gen.ReferenceIdeal.Read
import proofs.«139985_j76527727280452_2_alg».proof.Proof.Gen.Pre_finite_inputs
import proofs.«139985_j76527727280452_2_alg».proof.Proof.Whole
import proofs.«139985_j76527727280452_2_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `AttnSpec.full` of the (agreeing) arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefSpec.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
